-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S100x4096 : Shape := ⟨2, ![100, 4096]⟩
abbrev S100 : Shape := ⟨1, ![100]⟩
abbrev S100x200 : Shape := ⟨2, ![100, 200]⟩
abbrev S2x100 : Shape := ⟨2, ![2, 100]⟩
abbrev S2 : Shape := ⟨1, ![2]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S100x4096 : S_.BroadcastsInDim S100x4096 (![] : Fin 0 → Fin S100x4096.rank)
  reducesTo_S100x4096_S_d0_1 : S100x4096.ReducesTo [0, 1] S_
  bcast_S_S100 : S_.BroadcastsInDim S100 (![] : Fin 0 → Fin S100.rank)
  reducesTo_S100_S_d0 : S100.ReducesTo [0] S_
  bcast_S_S100x200 : S_.BroadcastsInDim S100x200 (![] : Fin 0 → Fin S100x200.rank)
  reducesTo_S100x200_S_d0_1 : S100x200.ReducesTo [0, 1] S_
  bcast_S_S2x100 : S_.BroadcastsInDim S2x100 (![] : Fin 0 → Fin S2x100.rank)
  reducesTo_S2x100_S_d0_1 : S2x100.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S100 .f32) (main_arg5 : FVec F S2x100 .f32) (main_arg6 : FVec F S2 .f32) (main_v13 : IVec S_ 1) (main_v16 : IVec S100x200 1) : IVec S_ 1 :=
  let main_c_5 : IVec S_ 1 := constantI S_ 1 1#1
  let main_v17 : IVec S_ 1 := (fun x v => Host.reduce IntOp.andi x v reducesTo_S100x200_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S2x100 .f32 := Host.absf main_arg5
  let main_cst_8 : FVec F S_ .f32 := constant S_ .f32 0x7F800000#32
  let main_v25 : FVec F S2x100 .f32 := broadcastInDim S2x100 ![] bcast_S_S2x100 main_cst_8
  let main_v26 : IVec S2x100 1 := cmpf .olt main_v24 main_v25
  let main_c_9 : IVec S_ 1 := constantI S_ 1 1#1
  let main_v27 : IVec S_ 1 := (fun x v => Host.reduce IntOp.andi x v reducesTo_S2x100_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S8192x4096 .f32) (main_arg1 : FVec F S100x4096 .f32) (main_arg2 : FVec F S100 .f32) (main_arg3 : FVec F S100x200 .f32) (main_arg4 : FVec F S100 .f32) (main_arg5 : FVec F S2x100 .f32) (main_arg6 : FVec F S2 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S100x4096 .f32 := Host.absf main_arg1
  let main_cst_0 : FVec F S_ .f32 := constant S_ .f32 0x7F800000#32
  let main_v5 : FVec F S100x4096 .f32 := broadcastInDim S100x4096 ![] bcast_S_S100x4096 main_cst_0
  let main_v6 : IVec S100x4096 1 := cmpf .olt main_v4 main_v5
  let main_c_1 : IVec S_ 1 := constantI S_ 1 1#1
  let main_v7 : IVec S_ 1 := (fun x v => Host.reduce IntOp.andi x v reducesTo_S100x4096_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x200 .f32 := Host.absf main_arg3
  let main_cst_4 : FVec F S_ .f32 := constant S_ .f32 0x7F800000#32
  let main_v15 : FVec F S100x200 .f32 := broadcastInDim S100x200 ![] bcast_S_S100x200 main_cst_4
  let main_v16 : IVec S100x200 1 := cmpf .olt main_v14 main_v15
  fn_part1 (F := F) main_arg4 main_arg5 main_arg6 main_v13 main_v16
-- ==== Kernel.lean ====
abbrev S8192x4096 : Shape := ⟨2, ![8192, 4096]⟩
abbrev S100x4096 : Shape := ⟨2, ![100, 4096]⟩
abbrev S100 : Shape := ⟨1, ![100]⟩
abbrev S100x200 : Shape := ⟨2, ![100, 200]⟩
abbrev S2x100 : Shape := ⟨2, ![2, 100]⟩
abbrev S2 : Shape := ⟨1, ![2]⟩
abbrev S4096x100 : Shape := ⟨2, ![4096, 100]⟩
abbrev S1x100 : Shape := ⟨2, ![1, 100]⟩
abbrev S8192x100 : Shape := ⟨2, ![8192, 100]⟩
abbrev S512x4096 : Shape := ⟨2, ![512, 4096]⟩
abbrev S512x100 : Shape := ⟨2, ![512, 100]⟩
abbrev S200x100 : Shape := ⟨2, ![200, 100]⟩
abbrev S100x2 : Shape := ⟨2, ![100, 2]⟩
abbrev S1x2 : Shape := ⟨2, ![1, 2]⟩
abbrev S4096x200 : Shape := ⟨2, ![4096, 200]⟩
abbrev S2048x200 : Shape := ⟨2, ![2048, 200]⟩
abbrev S2048x100 : Shape := ⟨2, ![2048, 100]⟩
abbrev S1024x200 : Shape := ⟨2, ![1024, 200]⟩
abbrev S1024x100 : Shape := ⟨2, ![1024, 100]⟩
abbrev S512x200 : Shape := ⟨2, ![512, 200]⟩
abbrev S256x200 : Shape := ⟨2, ![256, 200]⟩
abbrev S256x100 : Shape := ⟨2, ![256, 100]⟩
abbrev S128x200 : Shape := ⟨2, ![128, 200]⟩
abbrev S128x100 : Shape := ⟨2, ![128, 100]⟩
abbrev S64x200 : Shape := ⟨2, ![64, 200]⟩
abbrev S64x100 : Shape := ⟨2, ![64, 100]⟩
abbrev S32x200 : Shape := ⟨2, ![32, 200]⟩
abbrev S32x100 : Shape := ⟨2, ![32, 100]⟩
abbrev S16x200 : Shape := ⟨2, ![16, 200]⟩
abbrev S16x100 : Shape := ⟨2, ![16, 100]⟩
abbrev S8x200 : Shape := ⟨2, ![8, 200]⟩
abbrev S8x100 : Shape := ⟨2, ![8, 100]⟩
abbrev S4x200 : Shape := ⟨2, ![4, 200]⟩
abbrev S4x100 : Shape := ⟨2, ![4, 100]⟩
abbrev S2x200 : Shape := ⟨2, ![2, 200]⟩
abbrev S1x200 : Shape := ⟨2, ![1, 200]⟩

abbrev nBuf : Space → Nat
  | .hbm => 15
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S100x4096, .f32⟩
  | .hbm, ⟨2, _⟩ => ⟨S100, .f32⟩
  | .hbm, ⟨3, _⟩ => ⟨S100x200, .f32⟩
  | .hbm, ⟨4, _⟩ => ⟨S100, .f32⟩
  | .hbm, ⟨5, _⟩ => ⟨S2x100, .f32⟩
  | .hbm, ⟨6, _⟩ => ⟨S2, .f32⟩
  | .hbm, ⟨7, _⟩ => ⟨S4096x100, .f32⟩
  | .hbm, ⟨8, _⟩ => ⟨S1x100, .f32⟩
  | .hbm, ⟨9, _⟩ => ⟨S8192x100, .f32⟩
  | .hbm, ⟨10, _⟩ => ⟨S200x100, .f32⟩
  | .hbm, ⟨11, _⟩ => ⟨S1x100, .f32⟩
  | .hbm, ⟨12, _⟩ => ⟨S100x2, .f32⟩
  | .hbm, ⟨13, _⟩ => ⟨S1x2, .f32⟩
  | .hbm, ⟨14, _⟩ => ⟨S1x2, .f32⟩
  | .local _ .vmem, ⟨0, _⟩ => ⟨S512x4096, .f32⟩
  | .local _ .vmem, ⟨1, _⟩ => ⟨S512x4096, .f32⟩
  | .local _ .vmem, ⟨2, _⟩ => ⟨S4096x100, .f32⟩
  | .local _ .vmem, ⟨3, _⟩ => ⟨S1x100, .f32⟩
  | .local _ .vmem, ⟨4, _⟩ => ⟨S512x100, .f32⟩
  | .local _ .vmem, ⟨5, _⟩ => ⟨S512x100, .f32⟩
  | .local _ .vmem, ⟨6, _⟩ => ⟨S8192x100, .f32⟩
  | .local _ .vmem, ⟨7, _⟩ => ⟨S200x100, .f32⟩
  | .local _ .vmem, ⟨8, _⟩ => ⟨S1x100, .f32⟩
  | .local _ .vmem, ⟨9, _⟩ => ⟨S100x2, .f32⟩
  | .local _ .vmem, ⟨10, _⟩ => ⟨S1x2, .f32⟩
  | .local _ .vmem, ⟨11, _⟩ => ⟨S1x2, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8192x100 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S200x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S100x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  transposes_S100x4096_S4096x100_1_0 : S100x4096.Transposes [1, 0] S4096x100
  shapeCasts_S100_S1x100 : S100.ShapeCasts S1x100
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x100_S4096x100_0_0 : ∀ a, (![0, 0] : Fin 2 → Nat) a + S4096x100.size a ≤ S4096x100.size a
  h_S4096x100 : 0 < S4096x100.numel
  shapeCasts_S4096x100_S4096x100 : S4096x100.ShapeCasts S4096x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S512x100 : S1x100.Broadcasts S512x100
  inb_S512x100_S512x100_0_0 : ∀ a, (![0, 0] : Fin 2 → Nat) a + S512x100.size a ≤ S512x100.size a
  h_S512x100 : 0 < S512x100.numel
  transposes_S100x200_S200x100_1_0 : S100x200.Transposes [1, 0] S200x100
  transposes_S2x100_S100x2_1_0 : S2x100.Transposes [1, 0] S100x2
  shapeCasts_S2_S1x2 : S2.ShapeCasts S1x2
  inb_S8192x100_S8192x100_0_0 : ∀ a, (![0, 0] : Fin 2 → Nat) a + S8192x100.size a ≤ S8192x100.size a
  h_S8192x100 : 0 < S8192x100.numel
  shapeCasts_S8192x100_S8192x100 : S8192x100.ShapeCasts S8192x100
  inb_S200x100_S200x100_0_0 : ∀ a, (![0, 0] : Fin 2 → Nat) a + S200x100.size a ≤ S200x100.size a
  h_S200x100 : 0 < S200x100.numel
  shapeCasts_S200x100_S200x100 : S200x100.ShapeCasts S200x100
  shapeCasts_S8192x100_S4096x200 : S8192x100.ShapeCasts S4096x200
  broadcasts_S1x100_S4096x100 : S1x100.Broadcasts S4096x100
  shapeCasts_S4096x100_S2048x200 : S4096x100.ShapeCasts S2048x200
  broadcasts_S1x100_S2048x100 : S1x100.Broadcasts S2048x100
  shapeCasts_S2048x100_S1024x200 : S2048x100.ShapeCasts S1024x200
  broadcasts_S1x100_S1024x100 : S1x100.Broadcasts S1024x100
  shapeCasts_S1024x100_S512x200 : S1024x100.ShapeCasts S512x200
  shapeCasts_S512x100_S256x200 : S512x100.ShapeCasts S256x200
  broadcasts_S1x100_S256x100 : S1x100.Broadcasts S256x100
  shapeCasts_S256x100_S128x200 : S256x100.ShapeCasts S128x200
  broadcasts_S1x100_S128x100 : S1x100.Broadcasts S128x100
  shapeCasts_S128x100_S64x200 : S128x100.ShapeCasts S64x200
  broadcasts_S1x100_S64x100 : S1x100.Broadcasts S64x100
  shapeCasts_S64x100_S32x200 : S64x100.ShapeCasts S32x200
  broadcasts_S1x100_S32x100 : S1x100.Broadcasts S32x100
  shapeCasts_S32x100_S16x200 : S32x100.ShapeCasts S16x200
  broadcasts_S1x100_S16x100 : S1x100.Broadcasts S16x100
  shapeCasts_S16x100_S8x200 : S16x100.ShapeCasts S8x200
  broadcasts_S1x100_S8x100 : S1x100.Broadcasts S8x100
  shapeCasts_S8x100_S4x200 : S8x100.ShapeCasts S4x200
  broadcasts_S1x100_S4x100 : S1x100.Broadcasts S4x100
  shapeCasts_S4x100_S2x200 : S4x100.ShapeCasts S2x200
  broadcasts_S1x100_S2x100 : S1x100.Broadcasts S2x100
  shapeCasts_S2x100_S1x200 : S2x100.ShapeCasts S1x200
  inb_S100x2_S100x2_0_0 : ∀ a, (![0, 0] : Fin 2 → Nat) a + S100x2.size a ≤ S100x2.size a
  h_S100x2 : 0 < S100x2.numel
  shapeCasts_S100x2_S100x2 : S100x2.ShapeCasts S100x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  dot_S512x4096_S4096x100_S512x100_1_0_0_1_n_n_wf : DotDims.WF S512x4096 S4096x100 S512x100 [1] [0] [0] [1] [] []
  dot_S4096x200_S200x100_S4096x100_1_0_0_1_n_n_wf : DotDims.WF S4096x200 S200x100 S4096x100 [1] [0] [0] [1] [] []
  dot_S2048x200_S200x100_S2048x100_1_0_0_1_n_n_wf : DotDims.WF S2048x200 S200x100 S2048x100 [1] [0] [0] [1] [] []
  dot_S1024x200_S200x100_S1024x100_1_0_0_1_n_n_wf : DotDims.WF S1024x200 S200x100 S1024x100 [1] [0] [0] [1] [] []
  dot_S512x200_S200x100_S512x100_1_0_0_1_n_n_wf : DotDims.WF S512x200 S200x100 S512x100 [1] [0] [0] [1] [] []
  dot_S256x200_S200x100_S256x100_1_0_0_1_n_n_wf : DotDims.WF S256x200 S200x100 S256x100 [1] [0] [0] [1] [] []
  dot_S128x200_S200x100_S128x100_1_0_0_1_n_n_wf : DotDims.WF S128x200 S200x100 S128x100 [1] [0] [0] [1] [] []
  dot_S64x200_S200x100_S64x100_1_0_0_1_n_n_wf : DotDims.WF S64x200 S200x100 S64x100 [1] [0] [0] [1] [] []
  dot_S32x200_S200x100_S32x100_1_0_0_1_n_n_wf : DotDims.WF S32x200 S200x100 S32x100 [1] [0] [0] [1] [] []
  dot_S16x200_S200x100_S16x100_1_0_0_1_n_n_wf : DotDims.WF S16x200 S200x100 S16x100 [1] [0] [0] [1] [] []
  dot_S8x200_S200x100_S8x100_1_0_0_1_n_n_wf : DotDims.WF S8x200 S200x100 S8x100 [1] [0] [0] [1] [] []
  dot_S4x200_S200x100_S4x100_1_0_0_1_n_n_wf : DotDims.WF S4x200 S200x100 S4x100 [1] [0] [0] [1] [] []
  dot_S2x200_S200x100_S2x100_1_0_0_1_n_n_wf : DotDims.WF S2x200 S200x100 S2x100 [1] [0] [0] [1] [] []
  dot_S1x200_S200x100_S1x100_1_0_0_1_n_n_wf : DotDims.WF S1x200 S200x100 S1x100 [1] [0] [0] [1] [] []
  dot_S1x100_S100x2_S1x2_1_0_0_1_n_n_wf : DotDims.WF S1x100 S100x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x100.size a ≤ S4096x100.size a
  hwx0_1 : ∀ i : grid0.Coords, EltTy.bits .f32 = 32 ∨ (Rect.block (s := S4096x100) S4096x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x100.size a ≤ S8192x100.size a
  hwx0_3 : ∀ i : grid0.Coords, EltTy.bits .f32 = 32 ∨ (Rect.block (s := S8192x100) S512x100.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x100.size a ≤ S8192x100.size a
  hwx1_0 : ∀ i : grid1.Coords, EltTy.bits .f32 = 32 ∨ (Rect.block (s := S8192x100) S8192x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200x100.size a ≤ S200x100.size a
  hwx1_1 : ∀ i : grid1.Coords, EltTy.bits .f32 = 32 ∨ (Rect.block (s := S200x100) S200x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x100.size a ≤ S1x100.size a
  hwx1_2 : ∀ i : grid1.Coords, EltTy.bits .f32 = 32 ∨ (Rect.block (s := S1x100) S1x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100x2.size a ≤ S100x2.size a
  hwx1_3 : ∀ i : grid1.Coords, EltTy.bits .f32 = 32 ∨ (Rect.block (s := S100x2) S100x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2.size a ≤ S1x2.size a
  hwx1_5 : ∀ i : grid1.Coords, EltTy.bits .f32 = 32 ∨ (Rect.block (s := S1x2) S1x2.size (cc1_transform_5 i) (hinb1_5 i)).WholeWords (EltTy.packing .f32)

variable [Facts₀]

def dot_S512x4096_S4096x100_S512x100_1_0_0_1_n_n : DotDims S512x4096 S4096x100 S512x100 where
  lhsContracting := [1]
  rhsContracting := [0]
  lhsNonContracting := [0]
  rhsNonContracting := [1]
  lhsBatch := []
  rhsBatch := []
  wf := dot_S512x4096_S4096x100_S512x100_1_0_0_1_n_n_wf
def dot_S4096x200_S200x100_S4096x100_1_0_0_1_n_n : DotDims S4096x200 S200x100 S4096x100 where
  lhsContracting := [1]
  rhsContracting := [0]
  lhsNonContracting := [0]
  rhsNonContracting := [1]
  lhsBatch := []
  rhsBatch := []
  wf := dot_S4096x200_S200x100_S4096x100_1_0_0_1_n_n_wf
def dot_S2048x200_S200x100_S2048x100_1_0_0_1_n_n : DotDims S2048x200 S200x100 S2048x100 where
  lhsContracting := [1]
  rhsContracting := [0]
  lhsNonContracting := [0]
  rhsNonContracting := [1]
  lhsBatch := []
  rhsBatch := []
  wf := dot_S2048x200_S200x100_S2048x100_1_0_0_1_n_n_wf
def dot_S1024x200_S200x100_S1024x100_1_0_0_1_n_n : DotDims S1024x200 S200x100 S1024x100 where
  lhsContracting := [1]
  rhsContracting := [0]
  lhsNonContracting := [0]
  rhsNonContracting := [1]
  lhsBatch := []
  rhsBatch := []
  wf := dot_S1024x200_S200x100_S1024x100_1_0_0_1_n_n_wf
def dot_S512x200_S200x100_S512x100_1_0_0_1_n_n : DotDims S512x200 S200x100 S512x100 where
  lhsContracting := [1]
  rhsContracting := [0]
  lhsNonContracting := [0]
  rhsNonContracting := [1]
  lhsBatch := []
  rhsBatch := []
  wf := dot_S512x200_S200x100_S512x100_1_0_0_1_n_n_wf
def dot_S256x200_S200x100_S256x100_1_0_0_1_n_n : DotDims S256x200 S200x100 S256x100 where
  lhsContracting := [1]
  rhsContracting := [0]
  lhsNonContracting := [0]
  rhsNonContracting := [1]
  lhsBatch := []
  rhsBatch := []
  wf := dot_S256x200_S200x100_S256x100_1_0_0_1_n_n_wf
def dot_S128x200_S200x100_S128x100_1_0_0_1_n_n : DotDims S128x200 S200x100 S128x100 where
  lhsContracting := [1]
  rhsContracting := [0]
  lhsNonContracting := [0]
  rhsNonContracting := [1]
  lhsBatch := []
  rhsBatch := []
  wf := dot_S128x200_S200x100_S128x100_1_0_0_1_n_n_wf
def dot_S64x200_S200x100_S64x100_1_0_0_1_n_n : DotDims S64x200 S200x100 S64x100 where
  lhsContracting := [1]
  rhsContracting := [0]
  lhsNonContracting := [0]
  rhsNonContracting := [1]
  lhsBatch := []
  rhsBatch := []
  wf := dot_S64x200_S200x100_S64x100_1_0_0_1_n_n_wf
def dot_S32x200_S200x100_S32x100_1_0_0_1_n_n : DotDims S32x200 S200x100 S32x100 where
  lhsContracting := [1]
  rhsContracting := [0]
  lhsNonContracting := [0]
  rhsNonContracting := [1]
  lhsBatch := []
  rhsBatch := []
  wf := dot_S32x200_S200x100_S32x100_1_0_0_1_n_n_wf
def dot_S16x200_S200x100_S16x100_1_0_0_1_n_n : DotDims S16x200 S200x100 S16x100 where
  lhsContracting := [1]
  rhsContracting := [0]
  lhsNonContracting := [0]
  rhsNonContracting := [1]
  lhsBatch := []
  rhsBatch := []
  wf := dot_S16x200_S200x100_S16x100_1_0_0_1_n_n_wf
def dot_S8x200_S200x100_S8x100_1_0_0_1_n_n : DotDims S8x200 S200x100 S8x100 where
  lhsContracting := [1]
  rhsContracting := [0]
  lhsNonContracting := [0]
  rhsNonContracting := [1]
  lhsBatch := []
  rhsBatch := []
  wf := dot_S8x200_S200x100_S8x100_1_0_0_1_n_n_wf
def dot_S4x200_S200x100_S4x100_1_0_0_1_n_n : DotDims S4x200 S200x100 S4x100 where
  lhsContracting := [1]
  rhsContracting := [0]
  lhsNonContracting := [0]
  rhsNonContracting := [1]
  lhsBatch := []
  rhsBatch := []
  wf := dot_S4x200_S200x100_S4x100_1_0_0_1_n_n_wf
def dot_S2x200_S200x100_S2x100_1_0_0_1_n_n : DotDims S2x200 S200x100 S2x100 where
  lhsContracting := [1]
  rhsContracting := [0]
  lhsNonContracting := [0]
  rhsNonContracting := [1]
  lhsBatch := []
  rhsBatch := []
  wf := dot_S2x200_S200x100_S2x100_1_0_0_1_n_n_wf
def dot_S1x200_S200x100_S1x100_1_0_0_1_n_n : DotDims S1x200 S200x100 S1x100 where
  lhsContracting := [1]
  rhsContracting := [0]
  lhsNonContracting := [0]
  rhsNonContracting := [1]
  lhsBatch := []
  rhsBatch := []
  wf := dot_S1x200_S200x100_S1x100_1_0_0_1_n_n_wf
def dot_S1x100_S100x2_S1x2_1_0_0_1_n_n : DotDims S1x100 S100x2 S1x2 where
  lhsContracting := [1]
  rhsContracting := [0]
  lhsNonContracting := [0]
  rhsNonContracting := [1]
  lhsBatch := []
  rhsBatch := []
  wf := dot_S1x100_S100x2_S1x2_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S8192x100.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S200x100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S100x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x2.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S100x4096 : Shape := ⟨2, ![100, 4096]⟩
abbrev S100 : Shape := ⟨1, ![100]⟩
abbrev S100x200 : Shape := ⟨2, ![100, 200]⟩
abbrev S2x100 : Shape := ⟨2, ![2, 100]⟩
abbrev S2 : Shape := ⟨1, ![2]⟩
abbrev S4096x100 : Shape := ⟨2, ![4096, 100]⟩
abbrev S8192x100 : Shape := ⟨2, ![8192, 100]⟩
abbrev S1x100 : Shape := ⟨2, ![1, 100]⟩
abbrev S_ : Shape := ⟨0, ![]⟩
abbrev S4096x200 : Shape := ⟨2, ![4096, 200]⟩
abbrev S200x100 : Shape := ⟨2, ![200, 100]⟩
abbrev S2048x200 : Shape := ⟨2, ![2048, 200]⟩
abbrev S2048x100 : Shape := ⟨2, ![2048, 100]⟩
abbrev S1024x200 : Shape := ⟨2, ![1024, 200]⟩
abbrev S1024x100 : Shape := ⟨2, ![1024, 100]⟩
abbrev S512x200 : Shape := ⟨2, ![512, 200]⟩
abbrev S512x100 : Shape := ⟨2, ![512, 100]⟩
abbrev S256x200 : Shape := ⟨2, ![256, 200]⟩
abbrev S256x100 : Shape := ⟨2, ![256, 100]⟩
abbrev S128x200 : Shape := ⟨2, ![128, 200]⟩
abbrev S128x100 : Shape := ⟨2, ![128, 100]⟩
abbrev S64x200 : Shape := ⟨2, ![64, 200]⟩
abbrev S64x100 : Shape := ⟨2, ![64, 100]⟩
abbrev S32x200 : Shape := ⟨2, ![32, 200]⟩
abbrev S32x100 : Shape := ⟨2, ![32, 100]⟩
abbrev S16x200 : Shape := ⟨2, ![16, 200]⟩
abbrev S16x100 : Shape := ⟨2, ![16, 100]⟩
abbrev S8x200 : Shape := ⟨2, ![8, 200]⟩
abbrev S8x100 : Shape := ⟨2, ![8, 100]⟩
abbrev S4x200 : Shape := ⟨2, ![4, 200]⟩
abbrev S4x100 : Shape := ⟨2, ![4, 100]⟩
abbrev S2x200 : Shape := ⟨2, ![2, 200]⟩
abbrev S1x200 : Shape := ⟨2, ![1, 200]⟩
abbrev S100x2 : Shape := ⟨2, ![100, 2]⟩
abbrev S1x2 : Shape := ⟨2, ![1, 2]⟩

abbrev nBuf : Space → Nat
  | .hbm => 135
  | .vmem => 0
  | .smem => 0
  | _ => 0

abbrev hbmTy0_0 (i : Nat) : BufTy := match i % 128 with
  | 0 => ⟨S8192x4096, .f32⟩
  | 1 => ⟨S100x4096, .f32⟩
  | 2 => ⟨S100, .f32⟩
  | 3 => ⟨S100x200, .f32⟩
  | 4 => ⟨S100, .f32⟩
  | 5 => ⟨S2x100, .f32⟩
  | 6 => ⟨S2, .f32⟩
  | 7 => ⟨S4096x100, .f32⟩
  | 8 => ⟨S8192x100, .f32⟩
  | 9 => ⟨S1x100, .f32⟩
  | 10 => ⟨S8192x100, .f32⟩
  | 11 => ⟨S8192x100, .f32⟩
  | 12 => ⟨S_, .f32⟩
  | 13 => ⟨S8192x100, .f32⟩
  | 14 => ⟨S8192x100, .f32⟩
  | 15 => ⟨S4096x200, .f32⟩
  | 16 => ⟨S200x100, .f32⟩
  | 17 => ⟨S4096x100, .f32⟩
  | 18 => ⟨S1x100, .f32⟩
  | 19 => ⟨S4096x100, .f32⟩
  | 20 => ⟨S4096x100, .f32⟩
  | 21 => ⟨S_, .f32⟩
  | 22 => ⟨S4096x100, .f32⟩
  | 23 => ⟨S4096x100, .f32⟩
  | 24 => ⟨S2048x200, .f32⟩
  | 25 => ⟨S200x100, .f32⟩
  | 26 => ⟨S2048x100, .f32⟩
  | 27 => ⟨S1x100, .f32⟩
  | 28 => ⟨S2048x100, .f32⟩
  | 29 => ⟨S2048x100, .f32⟩
  | 30 => ⟨S_, .f32⟩
  | 31 => ⟨S2048x100, .f32⟩
  | 32 => ⟨S2048x100, .f32⟩
  | 33 => ⟨S1024x200, .f32⟩
  | 34 => ⟨S200x100, .f32⟩
  | 35 => ⟨S1024x100, .f32⟩
  | 36 => ⟨S1x100, .f32⟩
  | 37 => ⟨S1024x100, .f32⟩
  | 38 => ⟨S1024x100, .f32⟩
  | 39 => ⟨S_, .f32⟩
  | 40 => ⟨S1024x100, .f32⟩
  | 41 => ⟨S1024x100, .f32⟩
  | 42 => ⟨S512x200, .f32⟩
  | 43 => ⟨S200x100, .f32⟩
  | 44 => ⟨S512x100, .f32⟩
  | 45 => ⟨S1x100, .f32⟩
  | 46 => ⟨S512x100, .f32⟩
  | 47 => ⟨S512x100, .f32⟩
  | 48 => ⟨S_, .f32⟩
  | 49 => ⟨S512x100, .f32⟩
  | 50 => ⟨S512x100, .f32⟩
  | 51 => ⟨S256x200, .f32⟩
  | 52 => ⟨S200x100, .f32⟩
  | 53 => ⟨S256x100, .f32⟩
  | 54 => ⟨S1x100, .f32⟩
  | 55 => ⟨S256x100, .f32⟩
  | 56 => ⟨S256x100, .f32⟩
  | 57 => ⟨S_, .f32⟩
  | 58 => ⟨S256x100, .f32⟩
  | 59 => ⟨S256x100, .f32⟩
  | 60 => ⟨S128x200, .f32⟩
  | 61 => ⟨S200x100, .f32⟩
  | 62 => ⟨S128x100, .f32⟩
  | 63 => ⟨S1x100, .f32⟩
  | 64 => ⟨S128x100, .f32⟩
  | 65 => ⟨S128x100, .f32⟩
  | 66 => ⟨S_, .f32⟩
  | 67 => ⟨S128x100, .f32⟩
  | 68 => ⟨S128x100, .f32⟩
  | 69 => ⟨S64x200, .f32⟩
  | 70 => ⟨S200x100, .f32⟩
  | 71 => ⟨S64x100, .f32⟩
  | 72 => ⟨S1x100, .f32⟩
  | 73 => ⟨S64x100, .f32⟩
  | 74 => ⟨S64x100, .f32⟩
  | 75 => ⟨S_, .f32⟩
  | 76 => ⟨S64x100, .f32⟩
  | 77 => ⟨S64x100, .f32⟩
  | 78 => ⟨S32x200, .f32⟩
  | 79 => ⟨S200x100, .f32⟩
  | 80 => ⟨S32x100, .f32⟩
  | 81 => ⟨S1x100, .f32⟩
  | 82 => ⟨S32x100, .f32⟩
  | 83 => ⟨S32x100, .f32⟩
  | 84 => ⟨S_, .f32⟩
  | 85 => ⟨S32x100, .f32⟩
  | 86 => ⟨S32x100, .f32⟩
  | 87 => ⟨S16x200, .f32⟩
  | 88 => ⟨S200x100, .f32⟩
  | 89 => ⟨S16x100, .f32⟩
  | 90 => ⟨S1x100, .f32⟩
  | 91 => ⟨S16x100, .f32⟩
  | 92 => ⟨S16x100, .f32⟩
  | 93 => ⟨S_, .f32⟩
  | 94 => ⟨S16x100, .f32⟩
  | 95 => ⟨S16x100, .f32⟩
  | 96 => ⟨S8x200, .f32⟩
  | 97 => ⟨S200x100, .f32⟩
  | 98 => ⟨S8x100, .f32⟩
  | 99 => ⟨S1x100, .f32⟩
  | 100 => ⟨S8x100, .f32⟩
  | 101 => ⟨S8x100, .f32⟩
  | 102 => ⟨S_, .f32⟩
  | 103 => ⟨S8x100, .f32⟩
  | 104 => ⟨S8x100, .f32⟩
  | 105 => ⟨S4x200, .f32⟩
  | 106 => ⟨S200x100, .f32⟩
  | 107 => ⟨S4x100, .f32⟩
  | 108 => ⟨S1x100, .f32⟩
  | 109 => ⟨S4x100, .f32⟩
  | 110 => ⟨S4x100, .f32⟩
  | 111 => ⟨S_, .f32⟩
  | 112 => ⟨S4x100, .f32⟩
  | 113 => ⟨S4x100, .f32⟩
  | 114 => ⟨S2x200, .f32⟩
  | 115 => ⟨S200x100, .f32⟩
  | 116 => ⟨S2x100, .f32⟩
  | 117 => ⟨S1x100, .f32⟩
  | 118 => ⟨S2x100, .f32⟩
  | 119 => ⟨S2x100, .f32⟩
  | 120 => ⟨S_, .f32⟩
  | 121 => ⟨S2x100, .f32⟩
  | 122 => ⟨S2x100, .f32⟩
  | 123 => ⟨S1x200, .f32⟩
  | 124 => ⟨S200x100, .f32⟩
  | 125 => ⟨S1x100, .f32⟩
  | 126 => ⟨S1x100, .f32⟩
  | 127 => ⟨S1x100, .f32⟩
  | _ => ⟨S8192x4096, .f32⟩

abbrev hbmTy0_1 (i : Nat) : BufTy := match i % 128 with
  | 0 => ⟨S_, .f32⟩
  | 1 => ⟨S1x100, .f32⟩
  | 2 => ⟨S1x100, .f32⟩
  | 3 => ⟨S100x2, .f32⟩
  | 4 => ⟨S1x2, .f32⟩
  | 5 => ⟨S1x2, .f32⟩
  | 6 => ⟨S1x2, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_cst : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call2_cst : Ref sig .tc := ⟨.hbm, 30, rfl⟩
abbrev main_call2_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call3_cst : Ref sig .tc := ⟨.hbm, 39, rfl⟩
abbrev main_call3_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call4_cst : Ref sig .tc := ⟨.hbm, 48, rfl⟩
abbrev main_call4_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call5_cst : Ref sig .tc := ⟨.hbm, 57, rfl⟩
abbrev main_call5_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call6_cst : Ref sig .tc := ⟨.hbm, 66, rfl⟩
abbrev main_call6_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call7_cst : Ref sig .tc := ⟨.hbm, 75, rfl⟩
abbrev main_call7_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call8_cst : Ref sig .tc := ⟨.hbm, 84, rfl⟩
abbrev main_call8_v0 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call9_cst : Ref sig .tc := ⟨.hbm, 93, rfl⟩
abbrev main_call9_v0 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call10_cst : Ref sig .tc := ⟨.hbm, 102, rfl⟩
abbrev main_call10_v0 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call11_cst : Ref sig .tc := ⟨.hbm, 111, rfl⟩
abbrev main_call11_v0 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call12_cst : Ref sig .tc := ⟨.hbm, 120, rfl⟩
abbrev main_call12_v0 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_call13_cst : Ref sig .tc := ⟨.hbm, 128, rfl⟩
abbrev main_call13_v0 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩

abbrev nD : Nat := 1
abbrev τ : Topo := Topo.v7x

variable {F : FTy → Type} [FloatOps F]

class Facts₀ : Prop where
  transposes_S100x4096_S4096x100_1_0 : S100x4096.Transposes [1, 0] S4096x100
  bcast_S100_S1x100_1 : S100.BroadcastsInDim S1x100 (![1] : Fin 1 → Fin S1x100.rank)
  bcast_S1x100_S8192x100_0_1 : S1x100.BroadcastsInDim S8192x100 (![0, 1] : Fin 2 → Fin S8192x100.rank)
  bcast_S_S8192x100 : S_.BroadcastsInDim S8192x100 (![] : Fin 0 → Fin S8192x100.rank)
  shapeCasts_S8192x100_S4096x200 : S8192x100.ShapeCasts S4096x200
  transposes_S100x200_S200x100_1_0 : S100x200.Transposes [1, 0] S200x100
  bcast_S1x100_S4096x100_0_1 : S1x100.BroadcastsInDim S4096x100 (![0, 1] : Fin 2 → Fin S4096x100.rank)
  bcast_S_S4096x100 : S_.BroadcastsInDim S4096x100 (![] : Fin 0 → Fin S4096x100.rank)
  shapeCasts_S4096x100_S2048x200 : S4096x100.ShapeCasts S2048x200
  bcast_S1x100_S2048x100_0_1 : S1x100.BroadcastsInDim S2048x100 (![0, 1] : Fin 2 → Fin S2048x100.rank)
  bcast_S_S2048x100 : S_.BroadcastsInDim S2048x100 (![] : Fin 0 → Fin S2048x100.rank)
  shapeCasts_S2048x100_S1024x200 : S2048x100.ShapeCasts S1024x200
  bcast_S1x100_S1024x100_0_1 : S1x100.BroadcastsInDim S1024x100 (![0, 1] : Fin 2 → Fin S1024x100.rank)
  bcast_S_S1024x100 : S_.BroadcastsInDim S1024x100 (![] : Fin 0 → Fin S1024x100.rank)
  shapeCasts_S1024x100_S512x200 : S1024x100.ShapeCasts S512x200
  bcast_S1x100_S512x100_0_1 : S1x100.BroadcastsInDim S512x100 (![0, 1] : Fin 2 → Fin S512x100.rank)
  bcast_S_S512x100 : S_.BroadcastsInDim S512x100 (![] : Fin 0 → Fin S512x100.rank)
  shapeCasts_S512x100_S256x200 : S512x100.ShapeCasts S256x200
  bcast_S1x100_S256x100_0_1 : S1x100.BroadcastsInDim S256x100 (![0, 1] : Fin 2 → Fin S256x100.rank)
  bcast_S_S256x100 : S_.BroadcastsInDim S256x100 (![] : Fin 0 → Fin S256x100.rank)
  shapeCasts_S256x100_S128x200 : S256x100.ShapeCasts S128x200
  bcast_S1x100_S128x100_0_1 : S1x100.BroadcastsInDim S128x100 (![0, 1] : Fin 2 → Fin S128x100.rank)
  bcast_S_S128x100 : S_.BroadcastsInDim S128x100 (![] : Fin 0 → Fin S128x100.rank)
  shapeCasts_S128x100_S64x200 : S128x100.ShapeCasts S64x200
  bcast_S1x100_S64x100_0_1 : S1x100.BroadcastsInDim S64x100 (![0, 1] : Fin 2 → Fin S64x100.rank)
  bcast_S_S64x100 : S_.BroadcastsInDim S64x100 (![] : Fin 0 → Fin S64x100.rank)
  shapeCasts_S64x100_S32x200 : S64x100.ShapeCasts S32x200
  bcast_S1x100_S32x100_0_1 : S1x100.BroadcastsInDim S32x100 (![0, 1] : Fin 2 → Fin S32x100.rank)
  bcast_S_S32x100 : S_.BroadcastsInDim S32x100 (![] : Fin 0 → Fin S32x100.rank)
  shapeCasts_S32x100_S16x200 : S32x100.ShapeCasts S16x200
  bcast_S1x100_S16x100_0_1 : S1x100.BroadcastsInDim S16x100 (![0, 1] : Fin 2 → Fin S16x100.rank)
  bcast_S_S16x100 : S_.BroadcastsInDim S16x100 (![] : Fin 0 → Fin S16x100.rank)
  shapeCasts_S16x100_S8x200 : S16x100.ShapeCasts S8x200
  bcast_S1x100_S8x100_0_1 : S1x100.BroadcastsInDim S8x100 (![0, 1] : Fin 2 → Fin S8x100.rank)
  bcast_S_S8x100 : S_.BroadcastsInDim S8x100 (![] : Fin 0 → Fin S8x100.rank)
  shapeCasts_S8x100_S4x200 : S8x100.ShapeCasts S4x200
  bcast_S1x100_S4x100_0_1 : S1x100.BroadcastsInDim S4x100 (![0, 1] : Fin 2 → Fin S4x100.rank)
  bcast_S_S4x100 : S_.BroadcastsInDim S4x100 (![] : Fin 0 → Fin S4x100.rank)
  shapeCasts_S4x100_S2x200 : S4x100.ShapeCasts S2x200
  bcast_S1x100_S2x100_0_1 : S1x100.BroadcastsInDim S2x100 (![0, 1] : Fin 2 → Fin S2x100.rank)
  bcast_S_S2x100 : S_.BroadcastsInDim S2x100 (![] : Fin 0 → Fin S2x100.rank)
  shapeCasts_S2x100_S1x200 : S2x100.ShapeCasts S1x200
  bcast_S_S1x100 : S_.BroadcastsInDim S1x100 (![] : Fin 0 → Fin S1x100.rank)
  transposes_S2x100_S100x2_1_0 : S2x100.Transposes [1, 0] S100x2
  bcast_S2_S1x2_1 : S2.BroadcastsInDim S1x2 (![1] : Fin 1 → Fin S1x2.rank)
  dot_S8192x4096_S4096x100_S8192x100_1_0_0_1_n_n_wf : DotDims.WF S8192x4096 S4096x100 S8192x100 [1] [0] [0] [1] [] []
  dot_S4096x200_S200x100_S4096x100_1_0_0_1_n_n_wf : DotDims.WF S4096x200 S200x100 S4096x100 [1] [0] [0] [1] [] []
  dot_S2048x200_S200x100_S2048x100_1_0_0_1_n_n_wf : DotDims.WF S2048x200 S200x100 S2048x100 [1] [0] [0] [1] [] []
  dot_S1024x200_S200x100_S1024x100_1_0_0_1_n_n_wf : DotDims.WF S1024x200 S200x100 S1024x100 [1] [0] [0] [1] [] []
  dot_S512x200_S200x100_S512x100_1_0_0_1_n_n_wf : DotDims.WF S512x200 S200x100 S512x100 [1] [0] [0] [1] [] []
  dot_S256x200_S200x100_S256x100_1_0_0_1_n_n_wf : DotDims.WF S256x200 S200x100 S256x100 [1] [0] [0] [1] [] []
  dot_S128x200_S200x100_S128x100_1_0_0_1_n_n_wf : DotDims.WF S128x200 S200x100 S128x100 [1] [0] [0] [1] [] []
  dot_S64x200_S200x100_S64x100_1_0_0_1_n_n_wf : DotDims.WF S64x200 S200x100 S64x100 [1] [0] [0] [1] [] []
  dot_S32x200_S200x100_S32x100_1_0_0_1_n_n_wf : DotDims.WF S32x200 S200x100 S32x100 [1] [0] [0] [1] [] []
  dot_S16x200_S200x100_S16x100_1_0_0_1_n_n_wf : DotDims.WF S16x200 S200x100 S16x100 [1] [0] [0] [1] [] []
  dot_S8x200_S200x100_S8x100_1_0_0_1_n_n_wf : DotDims.WF S8x200 S200x100 S8x100 [1] [0] [0] [1] [] []
  dot_S4x200_S200x100_S4x100_1_0_0_1_n_n_wf : DotDims.WF S4x200 S200x100 S4x100 [1] [0] [0] [1] [] []
  dot_S2x200_S200x100_S2x100_1_0_0_1_n_n_wf : DotDims.WF S2x200 S200x100 S2x100 [1] [0] [0] [1] [] []
  dot_S1x200_S200x100_S1x100_1_0_0_1_n_n_wf : DotDims.WF S1x200 S200x100 S1x100 [1] [0] [0] [1] [] []
  dot_S1x100_S100x2_S1x2_1_0_0_1_n_n_wf : DotDims.WF S1x100 S100x2 S1x2 [1] [0] [0] [1] [] []

variable [Facts₀]

def dot_S8192x4096_S4096x100_S8192x100_1_0_0_1_n_n : DotDims S8192x4096 S4096x100 S8192x100 where
  lhsContracting := [1]
  rhsContracting := [0]
  lhsNonContracting := [0]
  rhsNonContracting := [1]
  lhsBatch := []
  rhsBatch := []
  wf := dot_S8192x4096_S4096x100_S8192x100_1_0_0_1_n_n_wf
def dot_S4096x200_S200x100_S4096x100_1_0_0_1_n_n : DotDims S4096x200 S200x100 S4096x100 where
  lhsContracting := [1]
  rhsContracting := [0]
  lhsNonContracting := [0]
  rhsNonContracting := [1]
  lhsBatch := []
  rhsBatch := []
  wf := dot_S4096x200_S200x100_S4096x100_1_0_0_1_n_n_wf
def dot_S2048x200_S200x100_S2048x100_1_0_0_1_n_n : DotDims S2048x200 S200x100 S2048x100 where
  lhsContracting := [1]
  rhsContracting := [0]
  lhsNonContracting := [0]
  rhsNonContracting := [1]
  lhsBatch := []
  rhsBatch := []
  wf := dot_S2048x200_S200x100_S2048x100_1_0_0_1_n_n_wf
def dot_S1024x200_S200x100_S1024x100_1_0_0_1_n_n : DotDims S1024x200 S200x100 S1024x100 where
  lhsContracting := [1]
  rhsContracting := [0]
  lhsNonContracting := [0]
  rhsNonContracting := [1]
  lhsBatch := []
  rhsBatch := []
  wf := dot_S1024x200_S200x100_S1024x100_1_0_0_1_n_n_wf
def dot_S512x200_S200x100_S512x100_1_0_0_1_n_n : DotDims S512x200 S200x100 S512x100 where
  lhsContracting := [1]
  rhsContracting := [0]
  lhsNonContracting := [0]
  rhsNonContracting := [1]
  lhsBatch := []
  rhsBatch := []
  wf := dot_S512x200_S200x100_S512x100_1_0_0_1_n_n_wf
def dot_S256x200_S200x100_S256x100_1_0_0_1_n_n : DotDims S256x200 S200x100 S256x100 where
  lhsContracting := [1]
  rhsContracting := [0]
  lhsNonContracting := [0]
  rhsNonContracting := [1]
  lhsBatch := []
  rhsBatch := []
  wf := dot_S256x200_S200x100_S256x100_1_0_0_1_n_n_wf
def dot_S128x200_S200x100_S128x100_1_0_0_1_n_n : DotDims S128x200 S200x100 S128x100 where
  lhsContracting := [1]
  rhsContracting := [0]
  lhsNonContracting := [0]
  rhsNonContracting := [1]
  lhsBatch := []
  rhsBatch := []
  wf := dot_S128x200_S200x100_S128x100_1_0_0_1_n_n_wf
def dot_S64x200_S200x100_S64x100_1_0_0_1_n_n : DotDims S64x200 S200x100 S64x100 where
  lhsContracting := [1]
  rhsContracting := [0]
  lhsNonContracting := [0]
  rhsNonContracting := [1]
  lhsBatch := []
  rhsBatch := []
  wf := dot_S64x200_S200x100_S64x100_1_0_0_1_n_n_wf
def dot_S32x200_S200x100_S32x100_1_0_0_1_n_n : DotDims S32x200 S200x100 S32x100 where
  lhsContracting := [1]
  rhsContracting := [0]
  lhsNonContracting := [0]
  rhsNonContracting := [1]
  lhsBatch := []
  rhsBatch := []
  wf := dot_S32x200_S200x100_S32x100_1_0_0_1_n_n_wf
def dot_S16x200_S200x100_S16x100_1_0_0_1_n_n : DotDims S16x200 S200x100 S16x100 where
  lhsContracting := [1]
  rhsContracting := [0]
  lhsNonContracting := [0]
  rhsNonContracting := [1]
  lhsBatch := []
  rhsBatch := []
  wf := dot_S16x200_S200x100_S16x100_1_0_0_1_n_n_wf
def dot_S8x200_S200x100_S8x100_1_0_0_1_n_n : DotDims S8x200 S200x100 S8x100 where
  lhsContracting := [1]
  rhsContracting := [0]
  lhsNonContracting := [0]
  rhsNonContracting := [1]
  lhsBatch := []
  rhsBatch := []
  wf := dot_S8x200_S200x100_S8x100_1_0_0_1_n_n_wf
def dot_S4x200_S200x100_S4x100_1_0_0_1_n_n : DotDims S4x200 S200x100 S4x100 where
  lhsContracting := [1]
  rhsContracting := [0]
  lhsNonContracting := [0]
  rhsNonContracting := [1]
  lhsBatch := []
  rhsBatch := []
  wf := dot_S4x200_S200x100_S4x100_1_0_0_1_n_n_wf
def dot_S2x200_S200x100_S2x100_1_0_0_1_n_n : DotDims S2x200 S200x100 S2x100 where
  lhsContracting := [1]
  rhsContracting := [0]
  lhsNonContracting := [0]
  rhsNonContracting := [1]
  lhsBatch := []
  rhsBatch := []
  wf := dot_S2x200_S200x100_S2x100_1_0_0_1_n_n_wf
def dot_S1x200_S200x100_S1x100_1_0_0_1_n_n : DotDims S1x200 S200x100 S1x100 where
  lhsContracting := [1]
  rhsContracting := [0]
  lhsNonContracting := [0]
  rhsNonContracting := [1]
  lhsBatch := []
  rhsBatch := []
  wf := dot_S1x200_S200x100_S1x100_1_0_0_1_n_n_wf
def dot_S1x100_S100x2_S1x2_1_0_0_1_n_n : DotDims S1x100 S100x2 S1x2 where
  lhsContracting := [1]
  rhsContracting := [0]
  lhsNonContracting := [0]
  rhsNonContracting := [1]
  lhsBatch := []
  rhsBatch := []
  wf := dot_S1x100_S100x2_S1x2_1_0_0_1_n_n_wf

class Facts : Prop extends Facts₀ where

variable [Facts]
-- ==== Proof.LibPlainMatmul.lean ====
import Idealize.ShloMosaic.PureOps.Ideal.Laws
import Idealize.ShloMosaic.Lib.ValueLayout
import Idealize.ShloMosaic.Lib.StackMember

/-!
A plain matrix product (rows by contraction, times contraction by columns) accumulated into the zero
matrix, read at one entry at the ideal values: the sum over the contracted coordinate of the products
of the two operands' entries.  Also: a record of dimension numbers with the plain product's lists IS
the plain product's record, and the bit pattern of the float `1.0` denotes the extended real `1`.
-/

noncomputable section

namespace Cert.Proof.LibPlainMatmul

open Idealize.ShloMosaic Idealize.ShloMosaic.ValueIdx

/-- The plain `m × k` by `k × n` product into the zero accumulator, at entry `(a, b)`, is
    `∑ c, A (a, c) * B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The bit pattern of the single-precision `1.0` denotes the extended real `1`. -/
theorem ofBits_one_f32 : Ideal.ofBits .f32 0x3F800000#32 = 1 :=
  IdealRules.sign_bit.ideal_onePat .f32

end Cert.Proof.LibPlainMatmul

end
-- ==== Proof.LibPlainDot.lean ====
import Idealize.ShloMosaic.PureOps.Ideal.Laws
import Idealize.ShloMosaic.Lib.ValueLayout
import Idealize.ShloMosaic.Lib.ValueIdx

/-!
The host's `dot_general` of a plain matrix product (rows by contraction, times contraction by columns),
read at one entry at the ideal values: the sum over the contracted coordinate of the products of the two
operands' entries — whatever the sizes, whatever the operands' float formats, with no accumulator and no
order of summation left in it.
-/

noncomputable section

namespace Cert.Proof.LibPlainDot

open Idealize.ShloMosaic Idealize.ShloMosaic.ValueIdx

/-- The plain `m × k` by `k × n` host product, at entry `(a, b)`, is `∑ c, A (a, c) * B (c, b)`. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (F := Ideal) (DotDims.plain m k n) prec A B (ix2 a b)
      = ∑ c : Fin k, A (ix2 a c) * B (ix2 c b) := by
  simp only [Host.dotGeneral]
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.Proof.LibPlainDot

end
-- ==== Proof.LeafEntry.lean ====
import proofs.«108015_j13924283974382_2_alg».proof.Proof.Gen.KernelIdeal.Skeleton
import proofs.«108015_j13924283974382_2_alg».proof.Proof.Gen.ReferenceIdeal
import proofs.«108015_j13924283974382_2_alg».proof.Proof.LibPlainMatmul
import proofs.«108015_j13924283974382_2_alg».proof.Proof.LibPlainDot
import Idealize.ShloMosaic.Lib.ValueIdx
import Idealize.ShloMosaic.Lib.Pipeline.Value

noncomputable section

/-!
The leaf embedding read at one entry. Row `r` of the embedded leaves is `relu (x[r, :] · Weᵀ + be)`: entry
`(r, j)` is the larger of `0` and `∑ c, x (r, c) * wt (c, j) + bb (0, j)`, where `wt` is the embedding
weight transposed and `bb` the bias as a row. The kernel computes it for a block of 512 rows at a time (rounding
both operands to bf16 first, which changes nothing on the extended reals, and accumulating into zero); the
reference computes all 8192 rows by one host product. Both read the same at an entry.
-/
namespace Cert.Proof.Leaf
open Idealize.ShloMosaic Idealize.ShloMosaic.ValueIdx
open scoped BigOperators

/-- Entry `(r, j)` of the leaf embedding of `n` rows of sequences. -/
def leafEntry {n : Nat} (x : (⟨2, ![n, 4096]⟩ : Shape).Idx → EReal) (wt : (⟨2, ![4096, 100]⟩ : Shape).Idx → EReal)
    (bb : (⟨2, ![1, 100]⟩ : Shape).Idx → EReal) (r : Fin n) (j : Fin 100) : EReal :=
  max (∑ c : Fin 4096, x (ix2 r c) * wt (ix2 c j) + bb (ix2 (0 : Fin 1) j)) (Ideal.ofBits .f32 0x00000000#32)

/-- The bias row repeated down a matrix of `n` rows, read at `(r, j)`, is the row's entry `j`. -/
theorem biasRows_apply {n : Nat} (h : (⟨2, ![1, 100]⟩ : Shape).Broadcasts ⟨2, ![n, 100]⟩)
    (bb : (⟨2, ![1, 100]⟩ : Shape).Idx → EReal) (r : Fin n) (j : Fin 100) :
    broadcastTo (⟨2, ![n, 100]⟩ : Shape) bb h (ix2 r j) = bb (ix2 (0 : Fin 1) j) :=
  broadcastTo_apply bb h (ix2 r j) (ix2 (0 : Fin 1) j) (fun a => match a with
    | ⟨0, _⟩ => rfl
    | ⟨1, _⟩ => rfl)

/-- The same for the host's broadcast along the axes `0, 1`. -/
theorem biasRowsInDim_apply {n : Nat}
    (h : (⟨2, ![1, 100]⟩ : Shape).BroadcastsInDim ⟨2, ![n, 100]⟩ (![0, 1] : Fin 2 → Fin 2))
    (bb : (⟨2, ![1, 100]⟩ : Shape).Idx → EReal) (r : Fin n) (j : Fin 100) :
    broadcastInDim (⟨2, ![n, 100]⟩ : Shape) ![0, 1] h bb (ix2 r j) = bb (ix2 (0 : Fin 1) j) :=
  broadcastInDim_apply _ h bb (ix2 r j) (ix2 (0 : Fin 1) j) (fun a => match a with
    | ⟨0, _⟩ => rfl
    | ⟨1, _⟩ => rfl)

section Kernel

/-- What the embedding kernel stores for a block of 512 rows, at entry `(p, q)` of the block. -/
theorem block_entry (x0 : Vec Ideal Cert.KernelIdeal.S512x4096 .f32) (x1 : Vec Ideal Cert.KernelIdeal.S4096x100 .f32)
    (x2 : Vec Ideal Cert.KernelIdeal.S1x100 .f32) (p : Fin 512) (q : Fin 100) :
    Cert.KernelIdeal.Gen.k0_pay1 x0 x1 x2 (ix2 p q) = leafEntry x0 x1 x2 p q := by
  unfold Cert.KernelIdeal.Gen.k0_pay1
  simp only [shapeCast_self]
  show max (matmul (F := Ideal) (DotDims.plain 512 4096 100) none x0 x1
        (constant (F := Ideal) (⟨2, ![512, 100]⟩ : Shape) .f32 0x00000000#32) (ix2 p q)
      + broadcastTo (⟨2, ![512, 100]⟩ : Shape) x2 Cert.KernelIdeal.Facts₀.broadcasts_S1x100_S512x100 (ix2 p q))
      (Ideal.ofBits .f32 0x00000000#32) = _
  rw [Cert.Proof.LibPlainMatmul.matmul_plain_zero_apply, biasRows_apply]
  rfl

end Kernel

section Reference

/-- The reference's embedded leaves as the host computes them, from the sequences, the transposed weight and the
    bias row: product, bias broadcast down the rows, maximum with the zero constant. -/
def hostLeaves (x : FVec Ideal Cert.ReferenceIdeal.S8192x4096 .f32) (wt : FVec Ideal Cert.ReferenceIdeal.S4096x100 .f32)
    (bb : FVec Ideal Cert.ReferenceIdeal.S1x100 .f32) : FVec Ideal Cert.ReferenceIdeal.S8192x100 .f32 :=
  maximumf (addf (Host.dotGeneral Cert.ReferenceIdeal.dot_S8192x4096_S4096x100_S8192x100_1_0_0_1_n_n none x wt)
      (broadcastInDim Cert.ReferenceIdeal.S8192x100 ![0, 1] Cert.ReferenceIdeal.Facts₀.bcast_S1x100_S8192x100_0_1 bb))
    (broadcastInDim Cert.ReferenceIdeal.S8192x100 ![] Cert.ReferenceIdeal.Facts₀.bcast_S_S8192x100
      (constant Cert.ReferenceIdeal.S_ .f32 0x00000000#32))

/-- The host's leaves at entry `(r, j)`. -/
theorem hostLeaves_entry (x : FVec Ideal Cert.ReferenceIdeal.S8192x4096 .f32) (wt : FVec Ideal Cert.ReferenceIdeal.S4096x100 .f32)
    (bb : FVec Ideal Cert.ReferenceIdeal.S1x100 .f32) (r : Fin 8192) (j : Fin 100) :
    hostLeaves x wt bb (ix2 r j) = leafEntry x wt bb r j := by
  unfold hostLeaves
  show max (Host.dotGeneral (F := Ideal) (DotDims.plain 8192 4096 100) none x wt (ix2 r j)
      + broadcastInDim (⟨2, ![8192, 100]⟩ : Shape) ![0, 1] Cert.ReferenceIdeal.Facts₀.bcast_S1x100_S8192x100_0_1 bb (ix2 r j))
      (Ideal.ofBits .f32 0x00000000#32) = _
  rw [Cert.Proof.LibPlainDot.dotGeneral_plain_apply, biasRowsInDim_apply]
  rfl

end Reference

section Both

/-- A block of 512 rows whose row `p` is row `r` of the sequences: the kernel's stored entry `(p, q)` is the
    host's leaves at `(r, q)`. -/
theorem block_eq_hostLeaves (A0 : FVec Ideal Cert.ReferenceIdeal.S8192x4096 .f32) (A1 : FVec Ideal Cert.ReferenceIdeal.S4096x100 .f32)
    (A2 : FVec Ideal Cert.ReferenceIdeal.S1x100 .f32) (x0 : Vec Ideal Cert.KernelIdeal.S512x4096 .f32)
    (p : Fin 512) (q : Fin 100) (r : Fin 8192) (h0 : ∀ c : Fin 4096, x0 (ix2 p c) = A0 (ix2 r c)) :
    Cert.KernelIdeal.Gen.k0_pay1 x0 A1 A2 (ix2 p q) = hostLeaves A0 A1 A2 (ix2 r q) := by
  rw [block_entry, hostLeaves_entry]
  unfold leafEntry
  simp only [h0]

end Both

end Cert.Proof.Leaf

end
-- ==== Proof.LeafArray.lean ====
import proofs.«108015_j13924283974382_2_alg».proof.Proof.Gen.KernelIdeal.Frame
import proofs.«108015_j13924283974382_2_alg».proof.Proof.LeafEntry
import Idealize.ShloMosaic.Lib.Pipeline.Value
import Idealize.ShloMosaic.Lib.ValueIdx

set_option maxRecDepth 16384

noncomputable section

/-!
The array the embedding launch leaves. The launch has 16 grid points; point `t` reads rows `512 t … 512 t + 511`
of the sequences, the whole transposed weight and the whole bias row, and writes back rows `512 t … 512 t + 511`
of the output. Entry `(p, q)` of what point `t` writes is the host's leaves at `(512 t + p, q)` (one entry
depends on one row of the sequences only), and the 16 blocks of 512 rows cover the 8192 rows: the array ends as the
host's leaves of the three arrays the launch found.
-/
namespace Cert.Proof.LeafArray

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The block indices over the 16 points: the sequences' block moves with the output's along the rows, every other
    block index is `0`. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

/-- Every one of the 16 row blocks is some point's. -/
theorem index_onto : ∀ q0 : Fin 16, ∃ t : Fin cfg0.N, win0_3.index t = ![q0.val, 0] :=
  (by decide +kernel : ∀ q0 : Fin 16, ∃ t : Fin grid0.N, win0_3.index t = ![q0.val, 0])

/-- The host's leaves of the three arrays the launch finds. -/
def leaves (c : Dev nD) : S8192x100.Idx → Elt Ideal .f32 :=
  Cert.Proof.Leaf.hostLeaves (V c main_arg0) (V c main_v0) (V c main_v1)

/-- The weight window's block is the whole transposed weight at every point. -/
theorem weights_block (c : Dev nD) (t : Fin cfg0.N) : iblk0 V c 1 t = (V c main_v0 : S4096x100.Idx → Elt Ideal .f32) := by
  obtain ⟨_, _, e2, e3, _, _, _, _⟩ := index_facts t
  funext y
  show V c main_v0 (((cfg0.win 1).blk t).view.emb y) = V c main_v0 y
  refine congrArg (V c main_v0) (funext fun a => Fin.ext ?_)
  match a with
  | ⟨0, _⟩ => show win0_1.index t (0 : Fin 2) * 4096 + 1 * (y 0).val = (y 0).val; omega
  | ⟨1, _⟩ => show win0_1.index t (1 : Fin 2) * 100 + 1 * (y 1).val = (y 1).val; omega

/-- The bias window's block is the whole bias row at every point. -/
theorem bias_block (c : Dev nD) (t : Fin cfg0.N) : iblk0 V c 2 t = (V c main_v1 : S1x100.Idx → Elt Ideal .f32) := by
  obtain ⟨_, _, _, _, e4, e5, _, _⟩ := index_facts t
  funext y
  show V c main_v1 (((cfg0.win 2).blk t).view.emb y) = V c main_v1 y
  refine congrArg (V c main_v1) (funext fun a => Fin.ext ?_)
  match a with
  | ⟨0, _⟩ => show win0_2.index t (0 : Fin 2) * 1 + 1 * (y 0).val = (y 0).val; omega
  | ⟨1, _⟩ => show win0_2.index t (1 : Fin 2) * 100 + 1 * (y 1).val = (y 1).val; omega

/-- What point `t` writes back is block `t` of the host's leaves. -/
theorem flushed_eq (c : Dev nD) (t : Fin cfg0.N) :
    (dat0 V c).flushed 3 t = ((cfg0.win 3).blk t).view.read (Elt Ideal) (leaves V c) := by
  show (cfg0.win 3).cut (grid0.coords t) ((dat0 V c).after 3 t) = _
  rw [after0_3]
  unfold out0_3
  rw [View.canon_unit_zero origin2]
  simp only [View.ld_unit_zero (S := S512x4096) origin2, View.ld_unit_zero (S := S4096x100) origin2,
    View.ld_unit_zero (S := S1x100) origin2]
  rw [weights_block V c t, bias_block V c t]
  obtain ⟨e0, e1, _, _, _, _, e6, e7⟩ := index_facts t
  refine funext fun (y : S512x100.Idx) => ?_
  obtain ⟨p, q, rfl⟩ : ∃ (p : Fin 512) (q : Fin 100), y = ix2 p q := ⟨y 0, y 1, eq_ix2 y⟩
  have hemb : ((cfg0.win 3).blk t).view.emb (ix2 p q)
      = ix2 (⟨win0_3.index t (0 : Fin 2) * 512 + p.val, by have := p.isLt; omega⟩ : Fin 8192) q := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 100 + 1 * q.val = q.val; omega
  show k0_pay1 (iblk0 V c 0 t) (V c main_v0) (V c main_v1) (ix2 p q)
    = Cert.Proof.Leaf.hostLeaves (V c main_arg0) (V c main_v0) (V c main_v1) (((cfg0.win 3).blk t).view.emb (ix2 p q))
  rw [hemb]
  refine Cert.Proof.Leaf.block_eq_hostLeaves (V c main_arg0) (V c main_v0) (V c main_v1) (iblk0 V c 0 t) p q _ (fun c' => ?_)
  show V c main_arg0 (((cfg0.win 0).blk t).view.emb (ix2 p c')) = V c main_arg0 (ix2 _ c')
  refine congrArg (V c main_arg0) (funext fun a => Fin.ext ?_)
  match a with
  | ⟨0, _⟩ => show win0_0.index t (0 : Fin 2) * 512 + 1 * p.val = win0_3.index t (0 : Fin 2) * 512 + p.val; omega
  | ⟨1, _⟩ => show win0_0.index t (1 : Fin 2) * 4096 + 1 * c'.val = c'.val; omega

/-- An index of the output array is in point `t`'s block iff each coordinate is in the block's range. -/
theorem mem_block (t : Fin cfg0.N) (i : S8192x100.Idx) :
    i ∈ ((cfg0.win 3).blk t).view.set ↔ ∀ a : Fin 2, win0_3.index t a * S512x100.size a ≤ (i a).val
      ∧ (i a).val < win0_3.index t a * S512x100.size a + S512x100.size a := by
  show i ∈ ((View.whole main_v2).slice (win0_3.rect t)).set ↔ _
  rw [View.set_slice_whole, Rect.mem_set_unit]
  exact Iff.rfl

/-- Every index of the output array is in the block of the point that holds its row. -/
theorem covered (i : S8192x100.Idx) : ∃ t : Fin cfg0.N, (cfg0.win 3).flush t = true ∧ i ∈ ((cfg0.win 3).blk t).view.set := by
  have hi0 : (i 0).val < 8192 := (i 0).isLt
  have hi1 : (i 1).val < 100 := (i 1).isLt
  obtain ⟨t, ht⟩ := index_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 100 ≤ (i 1).val ∧ (i 1).val < win0_3.index t (1 : Fin 2) * 100 + 100; omega

/-- The output array after the launch is the host's leaves of the arrays it found. -/
theorem array_eq (c : Dev nD) : (dat0 V c).arrAt 3 cfg0.N = leaves V c :=
  (dat0 V c).arrAt_eq_of_cover 3 (leaves V c) (fun t _ => flushed_eq V c t) covered

end Cert.Proof.LeafArray

end
-- ==== Proof.TreeSpec.lean ====
import proofs.«108015_j13924283974382_2_alg».proof.Proof.Gen.KernelIdeal.Skeleton
import proofs.«108015_j13924283974382_2_alg».proof.Proof.LeafEntry

noncomputable section

/-!
The kernel's result as a function of the seven argument arrays: the tree kernel's function (thirteen levels of
`relu (pairs · Wᵀ + b)`, then `· Wpᵀ + bp`) of the host's leaves and of the transposed and reshaped parameters.
-/
namespace Cert.Proof.Tree
open Idealize.ShloMosaic

/-- What the tree kernel stores in its one output block, as a function of its five operand arrays: the embedded
    leaves, `Wᵀ`, the bias row, `Wpᵀ` and the projection's bias row. -/
def kernelTail (x0 : Vec Ideal Cert.KernelIdeal.S8192x100 .f32) (x1 : Vec Ideal Cert.KernelIdeal.S200x100 .f32) (x2 : Vec Ideal Cert.KernelIdeal.S1x100 .f32)
    (x3 : Vec Ideal Cert.KernelIdeal.S100x2 .f32) (x4 : Vec Ideal Cert.KernelIdeal.S1x2 .f32) : FVec Ideal Cert.KernelIdeal.S1x2 .f32 :=
  Cert.KernelIdeal.Gen.k1_pay1 (Cert.KernelIdeal.Gen.k1_pay2 x1) (Cert.KernelIdeal.Gen.k1_pay3 x2)
    (Cert.KernelIdeal.Gen.k1_pay5 (Cert.KernelIdeal.Gen.k1_pay2 x1) (Cert.KernelIdeal.Gen.k1_pay3 x2) (Cert.KernelIdeal.Gen.k1_pay4 x0 x1 x2))
    (Scalar.ofBits .f32 0x00000000#32) x3 x4

/-- The kernel's result as a function of the seven argument arrays: the tree kernel's function of the host's
    leaves and of the transposed and reshaped parameters the host lines before the second launch prepare. -/
def result (a0 : FVec Ideal Cert.ReferenceIdeal.S8192x4096 .f32) (a1 : FVec Ideal Cert.ReferenceIdeal.S100x4096 .f32) (a2 : FVec Ideal Cert.ReferenceIdeal.S100 .f32)
    (a3 : FVec Ideal Cert.ReferenceIdeal.S100x200 .f32) (a4 : FVec Ideal Cert.ReferenceIdeal.S100 .f32) (a5 : FVec Ideal Cert.ReferenceIdeal.S2x100 .f32)
    (a6 : FVec Ideal Cert.ReferenceIdeal.S2 .f32) : FVec Ideal Cert.KernelIdeal.S1x2 .f32 :=
  kernelTail
    (Cert.Proof.Leaf.hostLeaves a0 (transpose Cert.ReferenceIdeal.S4096x100 [1, 0] a1 Cert.ReferenceIdeal.Facts₀.transposes_S100x4096_S4096x100_1_0)
      (broadcastInDim Cert.ReferenceIdeal.S1x100 ![1] Cert.ReferenceIdeal.Facts₀.bcast_S100_S1x100_1 a2))
    (transpose Cert.KernelIdeal.S200x100 [1, 0] a3 Cert.KernelIdeal.Facts₀.transposes_S100x200_S200x100_1_0)
    (shapeCast Cert.KernelIdeal.S1x100 a4 Cert.KernelIdeal.Facts₀.shapeCasts_S100_S1x100)
    (transpose Cert.KernelIdeal.S100x2 [1, 0] a5 Cert.KernelIdeal.Facts₀.transposes_S2x100_S100x2_1_0)
    (shapeCast Cert.KernelIdeal.S1x2 a6 Cert.KernelIdeal.Facts₀.shapeCasts_S2_S1x2)

end Cert.Proof.Tree

end
-- ==== Proof.TreeArray.lean ====
import proofs.«108015_j13924283974382_2_alg».proof.Proof.Gen.KernelIdeal.Frame
import proofs.«108015_j13924283974382_2_alg».proof.Proof.TreeSpec
import Idealize.ShloMosaic.Lib.Pipeline.Value
import Idealize.ShloMosaic.Lib.ValueIdx

set_option maxRecDepth 16384

noncomputable section

/-!
The array the tree launch leaves. The launch has one grid point, every window's block is its whole array, and
the one output block is the whole 1 × 2 result: the result array ends as the tree kernel's function of the five
arrays the launch found.
-/
namespace Cert.Proof.TreeArray

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- Every block index of every window is `0` at the one point. -/
theorem index_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-! Each input window's block is its whole array. -/
theorem block0 (c : Dev nD) (t : Fin cfg1.N) : iblk1 V c 0 t = (V c main_v2 : S8192x100.Idx → Elt Ideal .f32) := by
  have e := index_facts t
  funext y
  show V c main_v2 (((cfg1.win 0).blk t).view.emb y) = V c main_v2 y
  refine congrArg (V c main_v2) (funext fun a => Fin.ext ?_)
  match a with
  | ⟨0, _⟩ => show win1_0.index t (0 : Fin 2) * 8192 + 1 * (y 0).val = (y 0).val; omega
  | ⟨1, _⟩ => show win1_0.index t (1 : Fin 2) * 100 + 1 * (y 1).val = (y 1).val; omega

theorem block1 (c : Dev nD) (t : Fin cfg1.N) : iblk1 V c 1 t = (V c main_v3 : S200x100.Idx → Elt Ideal .f32) := by
  have e := index_facts t
  funext y
  show V c main_v3 (((cfg1.win 1).blk t).view.emb y) = V c main_v3 y
  refine congrArg (V c main_v3) (funext fun a => Fin.ext ?_)
  match a with
  | ⟨0, _⟩ => show win1_1.index t (0 : Fin 2) * 200 + 1 * (y 0).val = (y 0).val; omega
  | ⟨1, _⟩ => show win1_1.index t (1 : Fin 2) * 100 + 1 * (y 1).val = (y 1).val; omega

theorem block2 (c : Dev nD) (t : Fin cfg1.N) : iblk1 V c 2 t = (V c main_v4 : S1x100.Idx → Elt Ideal .f32) := by
  have e := index_facts t
  funext y
  show V c main_v4 (((cfg1.win 2).blk t).view.emb y) = V c main_v4 y
  refine congrArg (V c main_v4) (funext fun a => Fin.ext ?_)
  match a with
  | ⟨0, _⟩ => show win1_2.index t (0 : Fin 2) * 1 + 1 * (y 0).val = (y 0).val; omega
  | ⟨1, _⟩ => show win1_2.index t (1 : Fin 2) * 100 + 1 * (y 1).val = (y 1).val; omega

theorem block3 (c : Dev nD) (t : Fin cfg1.N) : iblk1 V c 3 t = (V c main_v5 : S100x2.Idx → Elt Ideal .f32) := by
  have e := index_facts t
  funext y
  show V c main_v5 (((cfg1.win 3).blk t).view.emb y) = V c main_v5 y
  refine congrArg (V c main_v5) (funext fun a => Fin.ext ?_)
  match a with
  | ⟨0, _⟩ => show win1_3.index t (0 : Fin 2) * 100 + 1 * (y 0).val = (y 0).val; omega
  | ⟨1, _⟩ => show win1_3.index t (1 : Fin 2) * 2 + 1 * (y 1).val = (y 1).val; omega

theorem block4 (c : Dev nD) (t : Fin cfg1.N) : iblk1 V c 4 t = (V c main_v6 : S1x2.Idx → Elt Ideal .f32) := by
  have e := index_facts t
  funext y
  show V c main_v6 (((cfg1.win 4).blk t).view.emb y) = V c main_v6 y
  refine congrArg (V c main_v6) (funext fun a => Fin.ext ?_)
  match a with
  | ⟨0, _⟩ => show win1_4.index t (0 : Fin 2) * 1 + 1 * (y 0).val = (y 0).val; omega
  | ⟨1, _⟩ => show win1_4.index t (1 : Fin 2) * 2 + 1 * (y 1).val = (y 1).val; omega

/-- The tree kernel's function of the five arrays the launch finds. -/
def root (c : Dev nD) : S1x2.Idx → Elt Ideal .f32 :=
  Cert.Proof.Tree.kernelTail (V c main_v2) (V c main_v3) (V c main_v4) (V c main_v5) (V c main_v6)

/-- What the one point writes back is that function, read through the whole-array block. -/
theorem flushed_eq (c : Dev nD) (t : Fin cfg1.N) :
    (dat1 V c).flushed 5 t = ((cfg1.win 5).blk t).view.read (Elt Ideal) (root V c) := by
  show (cfg1.win 5).cut (grid1.coords t) ((dat1 V c).after 5 t) = _
  rw [after1_5]
  unfold out1_5
  rw [View.canon_unit_zero origin2]
  simp only [View.ld_unit_zero (S := S8192x100) origin2, View.ld_unit_zero (S := S200x100) origin2,
    View.ld_unit_zero (S := S1x100) origin2, View.ld_unit_zero (S := S100x2) origin2, View.ld_unit_zero (S := S1x2) origin2]
  rw [block0 V c t, block1 V c t, block2 V c t, block3 V c t, block4 V c t]
  have e := index_facts t
  refine funext fun (y : S1x2.Idx) => ?_
  show Cert.Proof.Tree.kernelTail (V c main_v2) (V c main_v3) (V c main_v4) (V c main_v5) (V c main_v6) y
    = Cert.Proof.Tree.kernelTail (V c main_v2) (V c main_v3) (V c main_v4) (V c main_v5) (V c main_v6)
        (((cfg1.win 5).blk t).view.emb y)
  refine congrArg (Cert.Proof.Tree.kernelTail (V c main_v2) (V c main_v3) (V c main_v4) (V c main_v5) (V c main_v6))
    (funext fun a => Fin.ext ?_)
  match a with
  | ⟨0, _⟩ => show (y 0).val = win1_5.index t (0 : Fin 2) * 1 + 1 * (y 0).val; omega
  | ⟨1, _⟩ => show (y 1).val = win1_5.index t (1 : Fin 2) * 2 + 1 * (y 1).val; omega

/-- An index of the result array is in the point's block iff each coordinate is in the block's range. -/
theorem mem_block (t : Fin cfg1.N) (i : S1x2.Idx) :
    i ∈ ((cfg1.win 5).blk t).view.set ↔ ∀ a : Fin 2, win1_5.index t a * S1x2.size a ≤ (i a).val
      ∧ (i a).val < win1_5.index t a * S1x2.size a + S1x2.size a := by
  show i ∈ ((View.whole main_v7).slice (win1_5.rect t)).set ↔ _
  rw [View.set_slice_whole, Rect.mem_set_unit]
  exact Iff.rfl

/-- The one block covers the result array. -/
theorem covered (i : S1x2.Idx) : ∃ t : Fin cfg1.N, (cfg1.win 5).flush t = true ∧ i ∈ ((cfg1.win 5).blk t).view.set := by
  have hi0 : (i 0).val < 1 := (i 0).isLt
  have hi1 : (i 1).val < 2 := (i 1).isLt
  have e := index_facts t1_0
  refine ⟨t1_0, flush1_5 t1_0, ?_⟩
  rw [mem_block]
  intro a
  match a with
  | ⟨0, _⟩ => show win1_5.index t1_0 (0 : Fin 2) * 1 ≤ (i 0).val ∧ (i 0).val < win1_5.index t1_0 (0 : Fin 2) * 1 + 1; omega
  | ⟨1, _⟩ => show win1_5.index t1_0 (1 : Fin 2) * 2 ≤ (i 1).val ∧ (i 1).val < win1_5.index t1_0 (1 : Fin 2) * 2 + 2; omega

/-- The result array after the launch is the tree kernel's function of the arrays it found. -/
theorem array_eq (c : Dev nD) : (dat1 V c).arrAt 5 cfg1.N = root V c :=
  (dat1 V c).arrAt_eq_of_cover 5 (root V c) (fun t _ => flushed_eq V c t) covered

end Cert.Proof.TreeArray

end
-- ==== Proof.LibFrontReads.lean ====
import Idealize.ShloMosaic.Lib.ValueIdx
import Idealize.ShloMosaic.Lib.Pipeline.Value
import Idealize.ShloMosaic.PureOps.Ideal.Laws

noncomputable section

/-!
General readings used by the front and decode value proofs, at arbitrary sizes: a matrix product into a zero
accumulator is the host's product; a vector seen as a row by a reshape is the vector broadcast to a row; a row seen
as a one-row block by a reshape is the row broadcast along a new middle axis; the keep-dimension form of a
one-entry vector (reshape to 1 × 1, repeat along the row) is the host's two broadcasts; a lane maximum and a lane
sum are the host's reductions; a scalar taken out of a 1 × 1 block and splat is the host's broadcast of the
reshaped block.
-/
namespace Cert.Proof.FrontLib
open Idealize.ShloMosaic Idealize.ShloMosaic.ValueIdx
open scoped BigOperators

variable {α : Type}

/-- A matrix product accumulated into the zero splat is the host's product of the same operands. -/
theorem matmul_zero_eq_dotGeneral {sl sr so : Shape} {φ₁ φ₂ : FTy} (d : DotDims sl sr so) (prec : Option ContractPrecision)
    (lhs : FVec Ideal sl φ₁) (rhs : FVec Ideal sr φ₂) :
    matmul (F := Ideal) d prec lhs rhs (constant (F := Ideal) so .f32 0x00000000#32)
      = Host.dotGeneral (F := Ideal) d prec lhs rhs :=
  funext fun j => by
    show FloatOps.matmul d prec lhs rhs (constant (F := Ideal) so .f32 0x00000000#32) j = FloatOps.dotGeneral d prec .single lhs rhs j
    rw [Ideal.matmul_constant_zero_apply, Ideal.dotGeneral_apply]

/-- A vector of n entries reshaped to a row is the vector broadcast to a row: entry c at (0, c) either way. -/
theorem asRow_eq_broadcast {n : Nat} (h : (⟨1, ![n]⟩ : Shape).ShapeCasts ⟨2, ![1, n]⟩)
    (h' : (⟨1, ![n]⟩ : Shape).BroadcastsInDim ⟨2, ![1, n]⟩ (![1] : Fin 1 → Fin 2)) (x : (⟨1, ![n]⟩ : Shape).Idx → α) :
    shapeCast (⟨2, ![1, n]⟩ : Shape) x h = broadcastInDim (⟨2, ![1, n]⟩ : Shape) ![1] h' x := by
  funext j
  obtain ⟨p, c, rfl⟩ : ∃ (p : Fin 1) (c : Fin n), j = ix2 p c := ⟨j 0, j 1, eq_ix2 j⟩
  obtain rfl : p = 0 := Subsingleton.elim _ _
  have e1 : shapeCast (⟨2, ![1, n]⟩ : Shape) x h (ix2 (0 : Fin 1) c) = x (ix1 c) :=
    shapeCast_apply x h _ (ix1 c) (by
      rw [Shape.rowMajor_val_one, Shape.rowMajor_val_two]
      show c.val = 0 * n + c.val
      omega)
  have e2 : broadcastInDim (⟨2, ![1, n]⟩ : Shape) ![1] h' x (ix2 (0 : Fin 1) c) = x (ix1 c) :=
    broadcastInDim_apply _ h' x _ (ix1 c) (fun a => match a with
      | ⟨0, _⟩ => by
        show c.val = if n = 1 then 0 else c.val
        split
        · have := c.isLt; omega
        · rfl)
  rw [e1, e2]

/-- A row of n entries reshaped to a 1 × 1 × n block is the row broadcast along a new middle axis. -/
theorem asBlock_eq_broadcast {n : Nat} (h : (⟨2, ![1, n]⟩ : Shape).ShapeCasts ⟨3, ![1, 1, n]⟩)
    (h' : (⟨2, ![1, n]⟩ : Shape).BroadcastsInDim ⟨3, ![1, 1, n]⟩ (![0, 2] : Fin 2 → Fin 3)) (x : (⟨2, ![1, n]⟩ : Shape).Idx → α) :
    shapeCast (⟨3, ![1, 1, n]⟩ : Shape) x h = broadcastInDim (⟨3, ![1, 1, n]⟩ : Shape) ![0, 2] h' x := by
  funext j
  obtain ⟨p, q, c, rfl⟩ : ∃ (p : Fin 1) (q : Fin 1) (c : Fin n), j = ix3 p q c := ⟨j 0, j 1, j 2, eq_ix3 j⟩
  obtain rfl : p = 0 := Subsingleton.elim _ _
  obtain rfl : q = 0 := Subsingleton.elim _ _
  have e1 : shapeCast (⟨3, ![1, 1, n]⟩ : Shape) x h (ix3 (0 : Fin 1) (0 : Fin 1) c) = x (ix2 (0 : Fin 1) c) :=
    shapeCast_apply x h _ (ix2 (0 : Fin 1) c) (by
      rw [Shape.rowMajor_val_two, Shape.rowMajor_val_three]
      show 0 * n + c.val = (0 * 1 + 0) * n + c.val
      omega)
  have e2 : broadcastInDim (⟨3, ![1, 1, n]⟩ : Shape) ![0, 2] h' x (ix3 (0 : Fin 1) (0 : Fin 1) c) = x (ix2 (0 : Fin 1) c) :=
    broadcastInDim_apply _ h' x _ (ix2 (0 : Fin 1) c) (fun a => match a with
      | ⟨0, _⟩ => by
        show 0 = if (1 : Nat) = 1 then 0 else 0
        rw [if_pos rfl]
      | ⟨1, _⟩ => by
        show c.val = if n = 1 then 0 else c.val
        split
        · have := c.isLt; omega
        · rfl)
  rw [e1, e2]

/-- The keep-dimension form of a one-entry vector: reshaped to 1 × 1 and repeated along a row of n, it is the
    host's two broadcasts of the same vector; every entry of the row is the one entry. -/
theorem keepdims_eq_broadcasts {n : Nat} (h1 : (⟨1, ![1]⟩ : Shape).ShapeCasts ⟨2, ![1, 1]⟩)
    (h2 : (⟨2, ![1, 1]⟩ : Shape).Broadcasts ⟨2, ![1, n]⟩)
    (h3 : (⟨2, ![1, 1]⟩ : Shape).BroadcastsInDim ⟨2, ![1, n]⟩ (![0, 1] : Fin 2 → Fin 2))
    (h4 : (⟨1, ![1]⟩ : Shape).BroadcastsInDim ⟨2, ![1, 1]⟩ (![0] : Fin 1 → Fin 2))
    (v : (⟨1, ![1]⟩ : Shape).Idx → α) :
    broadcastTo (⟨2, ![1, n]⟩ : Shape) (shapeCast (⟨2, ![1, 1]⟩ : Shape) v h1) h2
      = broadcastInDim (⟨2, ![1, n]⟩ : Shape) ![0, 1] h3 (broadcastInDim (⟨2, ![1, 1]⟩ : Shape) ![0] h4 v) := by
  funext j
  have e1 : broadcastTo (⟨2, ![1, n]⟩ : Shape) (shapeCast (⟨2, ![1, 1]⟩ : Shape) v h1) h2 j
      = shapeCast (⟨2, ![1, 1]⟩ : Shape) v h1 (ix2 (0 : Fin 1) (0 : Fin 1)) :=
    broadcastTo_apply _ h2 j (ix2 (0 : Fin 1) (0 : Fin 1)) (fun a => match a with
      | ⟨0, _⟩ => by
        show 0 = if (1 : Nat) = 1 then 0 else _
        rw [if_pos rfl]
      | ⟨1, _⟩ => by
        show 0 = if (1 : Nat) = 1 then 0 else _
        rw [if_pos rfl])
  have e2 : shapeCast (⟨2, ![1, 1]⟩ : Shape) v h1 (ix2 (0 : Fin 1) (0 : Fin 1)) = v (ix1 (0 : Fin 1)) :=
    shapeCast_apply v h1 _ (ix1 (0 : Fin 1)) (by
      rw [Shape.rowMajor_val_one, Shape.rowMajor_val_two]
      show 0 = 0 * 1 + 0
      omega)
  have e3 : broadcastInDim (⟨2, ![1, n]⟩ : Shape) ![0, 1] h3 (broadcastInDim (⟨2, ![1, 1]⟩ : Shape) ![0] h4 v) j
      = broadcastInDim (⟨2, ![1, 1]⟩ : Shape) ![0] h4 v (ix2 (0 : Fin 1) (0 : Fin 1)) :=
    broadcastInDim_apply _ h3 _ j (ix2 (0 : Fin 1) (0 : Fin 1)) (fun a => match a with
      | ⟨0, _⟩ => by
        show 0 = if (1 : Nat) = 1 then 0 else _
        rw [if_pos rfl]
      | ⟨1, _⟩ => by
        show 0 = if (1 : Nat) = 1 then 0 else _
        rw [if_pos rfl])
  have e4 : broadcastInDim (⟨2, ![1, 1]⟩ : Shape) ![0] h4 v (ix2 (0 : Fin 1) (0 : Fin 1)) = v (ix1 (0 : Fin 1)) :=
    broadcastInDim_apply _ h4 v _ (ix1 (0 : Fin 1)) (fun a => match a with
      | ⟨0, _⟩ => by
        show 0 = if (1 : Nat) = 1 then 0 else _
        rw [if_pos rfl])
  rw [e1, e2, e3, e4]

/-- A lane maximum over one axis, from the word `acc`, is the host's maximum reduction over that axis from the
    scalar constant of the same word. -/
theorem laneMax_eq_hostMax {s t : Shape} {a : Fin s.rank} (src : FVec Ideal s .f32) (acc : BitVec 32)
    (h : s.Reduces [a] t) (h' : s.ReducesTo [a] t) (hφ : FKind.Formats .f32) (hacc : acc = FKind.maximumf.neutral .f32 hφ)
    (hu : 0 < (⟨0, ![]⟩ : Shape).numel) :
    multiReduction (F := Ideal) .maximumf [a] t src acc h hφ hacc
      = Host.reduce FloatOps.maximumf src (constant (F := Ideal) (⟨0, ![]⟩ : Shape) .f32 acc) h' hu := by
  funext j
  rw [Ideal.multiReduction_maximumf_single, Host.reduce_eq_fold_single FloatOps.maximumf src _ h' h hu]
  rfl

/-- A lane sum over one axis, from the zero word, is the host's sum over that axis from the scalar zero. -/
theorem laneSum_eq_hostSum {s t : Shape} {a : Fin s.rank} (src : FVec Ideal s .f32)
    (h : s.Reduces [a] t) (h' : s.ReducesTo [a] t) (hφ : FKind.Formats .f32)
    (hacc : (0x00000000#32 : BitVec 32) = FKind.add.neutral .f32 hφ) (hu : 0 < (⟨0, ![]⟩ : Shape).numel) :
    multiReduction (F := Ideal) .add [a] t src 0x00000000#32 h hφ hacc
      = Host.reduceAdd (F := Ideal) src (constant (F := Ideal) (⟨0, ![]⟩ : Shape) .f32 0x00000000#32) h' hu := by
  funext j
  rw [Ideal.multiReduction_add_single]
  simp only [Host.reduceAdd, Ideal.hostReduceAdd_def]
  rw [Ideal.hostReduceAdd_single h' h]
  show _ = Ideal.ofBits .f32 0x00000000#32 + _
  rw [Ideal.ofBits_zero_f32, zero_add]

/-- The one entry of a 1 × 1 block, taken out and splat over a shape, is the host's broadcast of the block
    reshaped to a scalar. -/
theorem splat_extract_eq (t : Shape) (x : (⟨2, ![1, 1]⟩ : Shape).Idx → α)
    (hp : ∀ a, (![0, 0] : Fin 2 → Nat) a < (⟨2, ![1, 1]⟩ : Shape).size a)
    (hc : (⟨2, ![1, 1]⟩ : Shape).ShapeCasts ⟨0, ![]⟩)
    (hb : (⟨0, ![]⟩ : Shape).BroadcastsInDim t (![] : Fin 0 → Fin t.rank)) :
    broadcast t (extractAt ![0, 0] x hp) = broadcastInDim t ![] hb (shapeCast (⟨0, ![]⟩ : Shape) x hc) := by
  funext j
  have e1 : broadcastInDim t ![] hb (shapeCast (⟨0, ![]⟩ : Shape) x hc) j = shapeCast (⟨0, ![]⟩ : Shape) x hc ix0 :=
    broadcastInDim_apply _ hb _ j ix0 (fun a => a.elim0)
  have e2 : shapeCast (⟨0, ![]⟩ : Shape) x hc ix0 = x (ix2 (0 : Fin 1) (0 : Fin 1)) :=
    shapeCast_apply x hc _ (ix2 (0 : Fin 1) (0 : Fin 1)) (by
      have h0 := ((⟨0, ![]⟩ : Shape).rowMajor ix0).isLt
      have h1 : (⟨0, ![]⟩ : Shape).numel = 1 := rfl
      rw [Shape.rowMajor_val_two]
      show 0 * 1 + 0 = _
      omega)
  rw [e1, e2]
  show x _ = x _
  refine congrArg x (funext fun a => ?_)
  match a with
  | ⟨0, _⟩ => rfl
  | ⟨1, _⟩ => rfl

end Cert.Proof.FrontLib

end
-- ==== Proof.LibHostForms.lean ====
import Idealize.ShloMosaic.Lib.ValueIdx
import Idealize.ShloMosaic.Lib.Pipeline.Value
import Idealize.ShloMosaic.PureOps.Ideal.Laws
import proofs.«108015_j13924283974382_2_alg».proof.Proof.LibFrontReads

noncomputable section

/-!
A kernel's spelling of a dense layer against the host's, at the ideal values and arbitrary sizes.

* A matrix product of operands first rounded to a narrower format, accumulated into the zero matrix, is the
  host's product of the unrounded operands: on the extended reals a change of format is the identity, and the
  zero accumulator adds nothing.
* A block repeated along its unit axes up to a matrix of the same rank (the kernel's trailing-axes broadcast) is
  the host's broadcast along the axes `0, 1`.
* A scalar word splat over a shape is the host's broadcast of the rank-0 constant of that word.
-/
namespace Cert.Proof.LibHostForms
open Idealize.ShloMosaic Idealize.ShloMosaic.ValueIdx
open scoped BigOperators

variable {α : Type}

/-- The product of two rounded operands into the zero accumulator is the host's product of the operands. -/
theorem matmul_rounded_zero_eq_dotGeneral {sl sr so : Shape} {φ₁ φ₂ ψ₁ ψ₂ : FTy} (d : DotDims sl sr so)
    (prec : Option ContractPrecision) (lhs : FVec Ideal sl φ₁) (rhs : FVec Ideal sr φ₂)
    (h₁ : ψ₁.bits < φ₁.bits) (h₂ : ψ₂.bits < φ₂.bits) :
    matmul (F := Ideal) d prec (truncf ψ₁ lhs h₁) (truncf ψ₂ rhs h₂) (constant (F := Ideal) so .f32 0x00000000#32)
      = Host.dotGeneral (F := Ideal) d prec lhs rhs :=
  funext fun j => by
    show FloatOps.matmul d prec (truncf ψ₁ lhs h₁) (truncf ψ₂ rhs h₂) (constant (F := Ideal) so .f32 0x00000000#32) j
      = FloatOps.dotGeneral d prec .single lhs rhs j
    rw [Ideal.matmul_constant_zero_apply, Ideal.dotGeneral_apply]
    rfl

/-- Between two matrices the trailing-axes broadcast is the host's broadcast along the axes `0, 1`: either way
    entry `(p, q)` reads the operand at `(p, q)`, with `0` on each unit axis of the operand. -/
theorem broadcastTo_eq_broadcastInDim {a b a' b' : Nat}
    (h : (⟨2, ![a', b']⟩ : Shape).Broadcasts ⟨2, ![a, b]⟩)
    (h' : (⟨2, ![a', b']⟩ : Shape).BroadcastsInDim ⟨2, ![a, b]⟩ (![0, 1] : Fin 2 → Fin 2))
    (x : (⟨2, ![a', b']⟩ : Shape).Idx → α) :
    broadcastTo (⟨2, ![a, b]⟩ : Shape) x h = broadcastInDim (⟨2, ![a, b]⟩ : Shape) ![0, 1] h' x := by
  funext j
  unfold broadcastTo broadcastInDim
  refine congrArg x (funext fun ax => ?_)
  match ax with
  | ⟨0, _⟩ => rfl
  | ⟨1, _⟩ => rfl

/-- A scalar word splat over a shape is the host's broadcast of the rank-0 constant of that word. -/
theorem splat_eq_broadcastInDim (t : Shape) (φ : FTy) (w : BitVec φ.bits)
    (h : (⟨0, ![]⟩ : Shape).BroadcastsInDim t (![] : Fin 0 → Fin t.rank)) :
    broadcast t (Scalar.ofBits (F := Ideal) φ w) = broadcastInDim t ![] h (constant (F := Ideal) (⟨0, ![]⟩ : Shape) φ w) :=
  rfl

/-! ### The same three, with the host side's side condition derived from the kernel side's

so that each is a rewriting rule from the kernel's spelling to the host's whose right side is determined by its left. -/

/-- A shape that broadcasts to a matrix of its own rank broadcasts to it along the axes `0, 1`. -/
theorem inDim01_of_broadcasts {a b a' b' : Nat} (h : (⟨2, ![a', b']⟩ : Shape).Broadcasts ⟨2, ![a, b]⟩) :
    (⟨2, ![a', b']⟩ : Shape).BroadcastsInDim ⟨2, ![a, b]⟩ (![0, 1] : Fin 2 → Fin 2) :=
  ⟨fun x y hxy => by
      have e : (![0, 1] : Fin 2 → Fin 2) = id := funext fun ax => by
        match ax with
        | ⟨0, _⟩ => rfl
        | ⟨1, _⟩ => rfl
      rw [e] at hxy; exact hxy,
   fun ax => match ax with
    | ⟨0, _⟩ => (h.2 0).imp id (fun f => f (show (0 : Nat) + (2 - 2) < 2 by decide))
    | ⟨1, _⟩ => (h.2 1).imp id (fun f => f (show (1 : Nat) + (2 - 2) < 2 by decide))⟩

/-- The rank-0 shape broadcasts to every shape along no axis. -/
theorem scalarInDim (t : Shape) : (⟨0, ![]⟩ : Shape).BroadcastsInDim t (![] : Fin 0 → Fin t.rank) :=
  ⟨fun x => x.elim0, fun ax => ax.elim0⟩

/-- A vector of `n` entries broadcasts to a one-row matrix along the axis `1`. -/
theorem rowInDim (n : Nat) : (⟨1, ![n]⟩ : Shape).BroadcastsInDim ⟨2, ![1, n]⟩ (![1] : Fin 1 → Fin 2) :=
  ⟨fun _ _ _ => Subsingleton.elim _ _, fun ax => Or.inr (match ax with | ⟨0, _⟩ => rfl)⟩

theorem broadcastTo_eq_broadcastInDim' {a b a' b' : Nat} (h : (⟨2, ![a', b']⟩ : Shape).Broadcasts ⟨2, ![a, b]⟩)
    (x : (⟨2, ![a', b']⟩ : Shape).Idx → α) :
    broadcastTo (⟨2, ![a, b]⟩ : Shape) x h = broadcastInDim (⟨2, ![a, b]⟩ : Shape) ![0, 1] (inDim01_of_broadcasts h) x :=
  broadcastTo_eq_broadcastInDim h _ x

theorem splat_eq_broadcastInDim' (t : Shape) (φ : FTy) (w : BitVec φ.bits) :
    broadcast t (Scalar.ofBits (F := Ideal) φ w)
      = broadcastInDim t ![] (scalarInDim t) (constant (F := Ideal) (⟨0, ![]⟩ : Shape) φ w) :=
  rfl

/-- A vector reshaped to a one-row matrix is the vector broadcast to the row. -/
theorem asRow_eq_broadcast' {n : Nat} (h : (⟨1, ![n]⟩ : Shape).ShapeCasts ⟨2, ![1, n]⟩) (x : (⟨1, ![n]⟩ : Shape).Idx → α) :
    shapeCast (⟨2, ![1, n]⟩ : Shape) x h = broadcastInDim (⟨2, ![1, n]⟩ : Shape) ![1] (rowInDim n) x :=
  Cert.Proof.FrontLib.asRow_eq_broadcast h (rowInDim n) x

end Cert.Proof.LibHostForms

end
-- ==== Proof.HostLines.lean ====
import proofs.«108015_j13924283974382_2_alg».proof.Proof.Gen.KernelIdeal.Frame
import proofs.«108015_j13924283974382_2_alg».proof.Proof.LeafArray
import proofs.«108015_j13924283974382_2_alg».proof.Proof.TreeArray
import proofs.«108015_j13924283974382_2_alg».proof.Proof.LibHostForms
import Idealize.ShloMosaic.Lib.StableHlo.Run

set_option maxRecDepth 16384

noncomputable section

/-!
What each launch finds in its operand arrays, and the result.

Before the embedding launch the host transposes the embedding weight and reshapes its bias to a row; the launch
finds the sequences as launched beside those two. Before the tree launch the host transposes `W` and `Wp` and
reshapes `b` and `bp` to rows; the launch finds the embedding launch's output array beside those four. So the
result buffer ends at the tree kernel's function of the host's leaves and of the transposed and reshaped
parameters — `Tree.result` of the seven argument arrays as launched.
-/
namespace Cert.Proof.HostLines

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The embedding launch's operands -/

theorem V1_sequences (c : Dev nD) : V1 m ρ c main_arg0 = m ((c : Thread nD τ).loc main_arg0) := by
  show StableHlo.after hostOps0 (W0 m ρ c) (Proc.devRef .tc main_arg0) = _
  after_results

theorem V1_weightT (c : Dev nD) :
    V1 m ρ c main_v0 = transpose S4096x100 [1, 0] (m ((c : Thread nD τ).loc main_arg1)) Facts₀.transposes_S100x4096_S4096x100_1_0 := by
  show StableHlo.after hostOps0 (W0 m ρ c) (Proc.devRef .tc main_v0) = _
  after_results

theorem V1_biasRow (c : Dev nD) :
    V1 m ρ c main_v1 = shapeCast S1x100 (m ((c : Thread nD τ).loc main_arg2)) Facts₀.shapeCasts_S100_S1x100 := by
  show StableHlo.after hostOps0 (W0 m ρ c) (Proc.devRef .tc main_v1) = _
  after_results; rfl

/-! ## The arguments at the embedding launch's exit -/

theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

/-! ## The tree launch's operands -/

theorem V3_leaves (c : Dev nD) : V3 m ρ c main_v2 = (dat0 (V1 m ρ) c).arrAt 3 cfg0.N := by
  show StableHlo.after hostOps1 (W2 m ρ c) (Proc.devRef .tc main_v2) = _
  after_results
  exact W2_arr m ρ c 3

theorem V3_WT (c : Dev nD) :
    V3 m ρ c main_v3 = transpose S200x100 [1, 0] (m ((c : Thread nD τ).loc main_arg3)) Facts₀.transposes_S100x200_S200x100_1_0 := by
  show StableHlo.after hostOps1 (W2 m ρ c) (Proc.devRef .tc main_v3) = _
  after_results
  rw [W2_arg3]

theorem V3_bRow (c : Dev nD) :
    V3 m ρ c main_v4 = shapeCast S1x100 (m ((c : Thread nD τ).loc main_arg4)) Facts₀.shapeCasts_S100_S1x100 := by
  show StableHlo.after hostOps1 (W2 m ρ c) (Proc.devRef .tc main_v4) = _
  after_results
  rw [W2_arg4]
  rfl

theorem V3_WpT (c : Dev nD) :
    V3 m ρ c main_v5 = transpose S100x2 [1, 0] (m ((c : Thread nD τ).loc main_arg5)) Facts₀.transposes_S2x100_S100x2_1_0 := by
  show StableHlo.after hostOps1 (W2 m ρ c) (Proc.devRef .tc main_v5) = _
  after_results
  rw [W2_arg5]

theorem V3_bpRow (c : Dev nD) :
    V3 m ρ c main_v6 = shapeCast S1x2 (m ((c : Thread nD τ).loc main_arg6)) Facts₀.shapeCasts_S2_S1x2 := by
  show StableHlo.after hostOps1 (W2 m ρ c) (Proc.devRef .tc main_v6) = _
  after_results
  rw [W2_arg6]
  rfl

/-! ## The result -/

/-- The result buffer at the last boundary is `Tree.result` of the seven argument arrays as launched. -/
theorem result_eq (c : Dev nD) :
    W4 m ρ c (Proc.devRef .tc main_v7)
      = Cert.Proof.Tree.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (W4_arr m ρ c 5).trans ?_
  rw [Cert.Proof.TreeArray.array_eq (V3 m ρ) c]
  unfold Cert.Proof.TreeArray.root
  rw [V3_leaves, Cert.Proof.LeafArray.array_eq (V1 m ρ) c, V3_WT, V3_bRow, V3_WpT, V3_bpRow]
  unfold Cert.Proof.LeafArray.leaves
  rw [V1_sequences, V1_weightT, V1_biasRow]
  unfold Cert.Proof.Tree.result
  rw [Cert.Proof.LibHostForms.asRow_eq_broadcast' Facts₀.shapeCasts_S100_S1x100 (m ((c : Thread nD τ).loc main_arg2))]

end Cert.Proof.HostLines

end
-- ==== Proof.TreeTail.lean ====
import proofs.«108015_j13924283974382_2_alg».proof.Proof.Gen.KernelIdeal.Skeleton
import proofs.«108015_j13924283974382_2_alg».proof.Proof.Gen.ReferenceIdeal.Run
import proofs.«108015_j13924283974382_2_alg».proof.Proof.TreeSpec
import proofs.«108015_j13924283974382_2_alg».proof.Proof.LibHostForms
import Idealize.ShloMosaic.Lib.Pipeline.Value

noncomputable section

/-!
The tree reduction and the projection, kernel against reference, as whole arrays.

From the 8192 embedded leaves, level by level: adjacent rows are paired (`[2n, 100] → [n, 200]`, the same
row-major reshape on both sides), multiplied by `Wᵀ`, the bias row added to every row, and the maximum with `0`
taken; after thirteen levels one row is left, which is multiplied by `Wpᵀ` and `bp` added. The kernel spells a
level as a matrix product of bf16-rounded operands into the zero accumulator, a trailing-axes broadcast of the bias
row and a splat zero; the host as `dot_general`, a `broadcast_in_dim` of the bias row and a broadcast rank-0
constant. On the extended reals each kernel form IS the host form (rounding is the identity, the zero accumulator
adds nothing, the broadcasts read the same entries): ONE lemma for a level of any number of rows, used twelve
times; the last level (one row: the bias row is added as it is) and the projection are the same remark once
more. No entry of any array is opened.
-/
namespace Cert.Proof.Tree
open Idealize.ShloMosaic Idealize.ShloMosaic.TcCoe Idealize.SL.Sem
open Cert.Proof.LibHostForms

/-! ## One level, for any number of rows -/

/-- A level as the kernel spells it: the paired rows `p`, the rounded `Wᵀ`, the bias row. -/
def kernelLevel {n : Nat} (d : DotDims ⟨2, ![n, 200]⟩ ⟨2, ![200, 100]⟩ ⟨2, ![n, 100]⟩)
    (hb : (⟨2, ![1, 100]⟩ : Shape).Broadcasts ⟨2, ![n, 100]⟩)
    (p : FVec Ideal ⟨2, ![n, 200]⟩ .f32) (w : FVec Ideal ⟨2, ![200, 100]⟩ .bf16) (b : FVec Ideal ⟨2, ![1, 100]⟩ .f32) :
    FVec Ideal ⟨2, ![n, 100]⟩ .f32 :=
  maximumf (addf (matmul d none (truncf .bf16 p (by decide)) w (constant ⟨2, ![n, 100]⟩ .f32 0x00000000#32))
      (broadcastTo ⟨2, ![n, 100]⟩ b hb))
    (broadcast ⟨2, ![n, 100]⟩ (Scalar.ofBits .f32 0x00000000#32))

/-- A level as the host spells it: the paired rows, `Wᵀ`, the bias row. -/
def hostLevel {n : Nat} (d : DotDims ⟨2, ![n, 200]⟩ ⟨2, ![200, 100]⟩ ⟨2, ![n, 100]⟩)
    (hb : (⟨2, ![1, 100]⟩ : Shape).BroadcastsInDim ⟨2, ![n, 100]⟩ (![0, 1] : Fin 2 → Fin 2))
    (hz : (⟨0, ![]⟩ : Shape).BroadcastsInDim ⟨2, ![n, 100]⟩ (![] : Fin 0 → Fin 2))
    (p : FVec Ideal ⟨2, ![n, 200]⟩ .f32) (wt : FVec Ideal ⟨2, ![200, 100]⟩ .f32) (b : FVec Ideal ⟨2, ![1, 100]⟩ .f32) :
    FVec Ideal ⟨2, ![n, 100]⟩ .f32 :=
  maximumf (addf (Host.dotGeneral d none p wt) (broadcastInDim ⟨2, ![n, 100]⟩ ![0, 1] hb b))
    (broadcastInDim ⟨2, ![n, 100]⟩ ![] hz (constant ⟨0, ![]⟩ .f32 0x00000000#32))

/-- The kernel's level on the rounded weight is the host's level on the weight. -/
theorem level_eq {n : Nat} (d : DotDims ⟨2, ![n, 200]⟩ ⟨2, ![200, 100]⟩ ⟨2, ![n, 100]⟩)
    (hb : (⟨2, ![1, 100]⟩ : Shape).Broadcasts ⟨2, ![n, 100]⟩)
    (hb' : (⟨2, ![1, 100]⟩ : Shape).BroadcastsInDim ⟨2, ![n, 100]⟩ (![0, 1] : Fin 2 → Fin 2))
    (hz : (⟨0, ![]⟩ : Shape).BroadcastsInDim ⟨2, ![n, 100]⟩ (![] : Fin 0 → Fin 2))
    (p : FVec Ideal ⟨2, ![n, 200]⟩ .f32) (wt : FVec Ideal ⟨2, ![200, 100]⟩ .f32) (b : FVec Ideal ⟨2, ![1, 100]⟩ .f32)
    (h : FTy.bf16.bits < FTy.f32.bits) :
    kernelLevel d hb p (truncf .bf16 wt h) b = hostLevel d hb' hz p wt b := by
  unfold kernelLevel hostLevel
  rw [matmul_rounded_zero_eq_dotGeneral, broadcastTo_eq_broadcastInDim hb hb', splat_eq_broadcastInDim _ _ _ hz]

/-! ## The twelve levels with more than one row, in both spellings -/

def kl4096 (x : FVec Ideal Cert.KernelIdeal.S8192x100 .f32) (w : FVec Ideal Cert.KernelIdeal.S200x100 .bf16) (b : FVec Ideal Cert.KernelIdeal.S1x100 .f32) :
    FVec Ideal Cert.KernelIdeal.S4096x100 .f32 :=
  kernelLevel Cert.KernelIdeal.dot_S4096x200_S200x100_S4096x100_1_0_0_1_n_n Cert.KernelIdeal.Facts₀.broadcasts_S1x100_S4096x100
    (shapeCast Cert.KernelIdeal.S4096x200 x Cert.KernelIdeal.Facts₀.shapeCasts_S8192x100_S4096x200) w b
def kl2048 (x : FVec Ideal Cert.KernelIdeal.S4096x100 .f32) (w : FVec Ideal Cert.KernelIdeal.S200x100 .bf16) (b : FVec Ideal Cert.KernelIdeal.S1x100 .f32) :
    FVec Ideal Cert.KernelIdeal.S2048x100 .f32 :=
  kernelLevel Cert.KernelIdeal.dot_S2048x200_S200x100_S2048x100_1_0_0_1_n_n Cert.KernelIdeal.Facts₀.broadcasts_S1x100_S2048x100
    (shapeCast Cert.KernelIdeal.S2048x200 x Cert.KernelIdeal.Facts₀.shapeCasts_S4096x100_S2048x200) w b
def kl1024 (x : FVec Ideal Cert.KernelIdeal.S2048x100 .f32) (w : FVec Ideal Cert.KernelIdeal.S200x100 .bf16) (b : FVec Ideal Cert.KernelIdeal.S1x100 .f32) :
    FVec Ideal Cert.KernelIdeal.S1024x100 .f32 :=
  kernelLevel Cert.KernelIdeal.dot_S1024x200_S200x100_S1024x100_1_0_0_1_n_n Cert.KernelIdeal.Facts₀.broadcasts_S1x100_S1024x100
    (shapeCast Cert.KernelIdeal.S1024x200 x Cert.KernelIdeal.Facts₀.shapeCasts_S2048x100_S1024x200) w b
def kl512 (x : FVec Ideal Cert.KernelIdeal.S1024x100 .f32) (w : FVec Ideal Cert.KernelIdeal.S200x100 .bf16) (b : FVec Ideal Cert.KernelIdeal.S1x100 .f32) :
    FVec Ideal Cert.KernelIdeal.S512x100 .f32 :=
  kernelLevel Cert.KernelIdeal.dot_S512x200_S200x100_S512x100_1_0_0_1_n_n Cert.KernelIdeal.Facts₀.broadcasts_S1x100_S512x100
    (shapeCast Cert.KernelIdeal.S512x200 x Cert.KernelIdeal.Facts₀.shapeCasts_S1024x100_S512x200) w b
def kl256 (x : FVec Ideal Cert.KernelIdeal.S512x100 .f32) (w : FVec Ideal Cert.KernelIdeal.S200x100 .bf16) (b : FVec Ideal Cert.KernelIdeal.S1x100 .f32) :
    FVec Ideal Cert.KernelIdeal.S256x100 .f32 :=
  kernelLevel Cert.KernelIdeal.dot_S256x200_S200x100_S256x100_1_0_0_1_n_n Cert.KernelIdeal.Facts₀.broadcasts_S1x100_S256x100
    (shapeCast Cert.KernelIdeal.S256x200 x Cert.KernelIdeal.Facts₀.shapeCasts_S512x100_S256x200) w b
def kl128 (x : FVec Ideal Cert.KernelIdeal.S256x100 .f32) (w : FVec Ideal Cert.KernelIdeal.S200x100 .bf16) (b : FVec Ideal Cert.KernelIdeal.S1x100 .f32) :
    FVec Ideal Cert.KernelIdeal.S128x100 .f32 :=
  kernelLevel Cert.KernelIdeal.dot_S128x200_S200x100_S128x100_1_0_0_1_n_n Cert.KernelIdeal.Facts₀.broadcasts_S1x100_S128x100
    (shapeCast Cert.KernelIdeal.S128x200 x Cert.KernelIdeal.Facts₀.shapeCasts_S256x100_S128x200) w b
def kl64 (x : FVec Ideal Cert.KernelIdeal.S128x100 .f32) (w : FVec Ideal Cert.KernelIdeal.S200x100 .bf16) (b : FVec Ideal Cert.KernelIdeal.S1x100 .f32) :
    FVec Ideal Cert.KernelIdeal.S64x100 .f32 :=
  kernelLevel Cert.KernelIdeal.dot_S64x200_S200x100_S64x100_1_0_0_1_n_n Cert.KernelIdeal.Facts₀.broadcasts_S1x100_S64x100
    (shapeCast Cert.KernelIdeal.S64x200 x Cert.KernelIdeal.Facts₀.shapeCasts_S128x100_S64x200) w b
def kl32 (x : FVec Ideal Cert.KernelIdeal.S64x100 .f32) (w : FVec Ideal Cert.KernelIdeal.S200x100 .bf16) (b : FVec Ideal Cert.KernelIdeal.S1x100 .f32) :
    FVec Ideal Cert.KernelIdeal.S32x100 .f32 :=
  kernelLevel Cert.KernelIdeal.dot_S32x200_S200x100_S32x100_1_0_0_1_n_n Cert.KernelIdeal.Facts₀.broadcasts_S1x100_S32x100
    (shapeCast Cert.KernelIdeal.S32x200 x Cert.KernelIdeal.Facts₀.shapeCasts_S64x100_S32x200) w b
def kl16 (x : FVec Ideal Cert.KernelIdeal.S32x100 .f32) (w : FVec Ideal Cert.KernelIdeal.S200x100 .bf16) (b : FVec Ideal Cert.KernelIdeal.S1x100 .f32) :
    FVec Ideal Cert.KernelIdeal.S16x100 .f32 :=
  kernelLevel Cert.KernelIdeal.dot_S16x200_S200x100_S16x100_1_0_0_1_n_n Cert.KernelIdeal.Facts₀.broadcasts_S1x100_S16x100
    (shapeCast Cert.KernelIdeal.S16x200 x Cert.KernelIdeal.Facts₀.shapeCasts_S32x100_S16x200) w b
def kl8 (x : FVec Ideal Cert.KernelIdeal.S16x100 .f32) (w : FVec Ideal Cert.KernelIdeal.S200x100 .bf16) (b : FVec Ideal Cert.KernelIdeal.S1x100 .f32) :
    FVec Ideal Cert.KernelIdeal.S8x100 .f32 :=
  kernelLevel Cert.KernelIdeal.dot_S8x200_S200x100_S8x100_1_0_0_1_n_n Cert.KernelIdeal.Facts₀.broadcasts_S1x100_S8x100
    (shapeCast Cert.KernelIdeal.S8x200 x Cert.KernelIdeal.Facts₀.shapeCasts_S16x100_S8x200) w b
def kl4 (x : FVec Ideal Cert.KernelIdeal.S8x100 .f32) (w : FVec Ideal Cert.KernelIdeal.S200x100 .bf16) (b : FVec Ideal Cert.KernelIdeal.S1x100 .f32) :
    FVec Ideal Cert.KernelIdeal.S4x100 .f32 :=
  kernelLevel Cert.KernelIdeal.dot_S4x200_S200x100_S4x100_1_0_0_1_n_n Cert.KernelIdeal.Facts₀.broadcasts_S1x100_S4x100
    (shapeCast Cert.KernelIdeal.S4x200 x Cert.KernelIdeal.Facts₀.shapeCasts_S8x100_S4x200) w b
def kl2 (x : FVec Ideal Cert.KernelIdeal.S4x100 .f32) (w : FVec Ideal Cert.KernelIdeal.S200x100 .bf16) (b : FVec Ideal Cert.KernelIdeal.S1x100 .f32) :
    FVec Ideal Cert.KernelIdeal.S2x100 .f32 :=
  kernelLevel Cert.KernelIdeal.dot_S2x200_S200x100_S2x100_1_0_0_1_n_n Cert.KernelIdeal.Facts₀.broadcasts_S1x100_S2x100
    (shapeCast Cert.KernelIdeal.S2x200 x Cert.KernelIdeal.Facts₀.shapeCasts_S4x100_S2x200) w b

def hl4096 (x : FVec Ideal Cert.ReferenceIdeal.S8192x100 .f32) (wt : FVec Ideal Cert.ReferenceIdeal.S200x100 .f32) (b : FVec Ideal Cert.ReferenceIdeal.S1x100 .f32) :
    FVec Ideal Cert.ReferenceIdeal.S4096x100 .f32 :=
  hostLevel Cert.ReferenceIdeal.dot_S4096x200_S200x100_S4096x100_1_0_0_1_n_n Cert.ReferenceIdeal.Facts₀.bcast_S1x100_S4096x100_0_1 Cert.ReferenceIdeal.Facts₀.bcast_S_S4096x100
    (shapeCast Cert.ReferenceIdeal.S4096x200 x Cert.ReferenceIdeal.Facts₀.shapeCasts_S8192x100_S4096x200) wt b
def hl2048 (x : FVec Ideal Cert.ReferenceIdeal.S4096x100 .f32) (wt : FVec Ideal Cert.ReferenceIdeal.S200x100 .f32) (b : FVec Ideal Cert.ReferenceIdeal.S1x100 .f32) :
    FVec Ideal Cert.ReferenceIdeal.S2048x100 .f32 :=
  hostLevel Cert.ReferenceIdeal.dot_S2048x200_S200x100_S2048x100_1_0_0_1_n_n Cert.ReferenceIdeal.Facts₀.bcast_S1x100_S2048x100_0_1 Cert.ReferenceIdeal.Facts₀.bcast_S_S2048x100
    (shapeCast Cert.ReferenceIdeal.S2048x200 x Cert.ReferenceIdeal.Facts₀.shapeCasts_S4096x100_S2048x200) wt b
def hl1024 (x : FVec Ideal Cert.ReferenceIdeal.S2048x100 .f32) (wt : FVec Ideal Cert.ReferenceIdeal.S200x100 .f32) (b : FVec Ideal Cert.ReferenceIdeal.S1x100 .f32) :
    FVec Ideal Cert.ReferenceIdeal.S1024x100 .f32 :=
  hostLevel Cert.ReferenceIdeal.dot_S1024x200_S200x100_S1024x100_1_0_0_1_n_n Cert.ReferenceIdeal.Facts₀.bcast_S1x100_S1024x100_0_1 Cert.ReferenceIdeal.Facts₀.bcast_S_S1024x100
    (shapeCast Cert.ReferenceIdeal.S1024x200 x Cert.ReferenceIdeal.Facts₀.shapeCasts_S2048x100_S1024x200) wt b
def hl512 (x : FVec Ideal Cert.ReferenceIdeal.S1024x100 .f32) (wt : FVec Ideal Cert.ReferenceIdeal.S200x100 .f32) (b : FVec Ideal Cert.ReferenceIdeal.S1x100 .f32) :
    FVec Ideal Cert.ReferenceIdeal.S512x100 .f32 :=
  hostLevel Cert.ReferenceIdeal.dot_S512x200_S200x100_S512x100_1_0_0_1_n_n Cert.ReferenceIdeal.Facts₀.bcast_S1x100_S512x100_0_1 Cert.ReferenceIdeal.Facts₀.bcast_S_S512x100
    (shapeCast Cert.ReferenceIdeal.S512x200 x Cert.ReferenceIdeal.Facts₀.shapeCasts_S1024x100_S512x200) wt b
def hl256 (x : FVec Ideal Cert.ReferenceIdeal.S512x100 .f32) (wt : FVec Ideal Cert.ReferenceIdeal.S200x100 .f32) (b : FVec Ideal Cert.ReferenceIdeal.S1x100 .f32) :
    FVec Ideal Cert.ReferenceIdeal.S256x100 .f32 :=
  hostLevel Cert.ReferenceIdeal.dot_S256x200_S200x100_S256x100_1_0_0_1_n_n Cert.ReferenceIdeal.Facts₀.bcast_S1x100_S256x100_0_1 Cert.ReferenceIdeal.Facts₀.bcast_S_S256x100
    (shapeCast Cert.ReferenceIdeal.S256x200 x Cert.ReferenceIdeal.Facts₀.shapeCasts_S512x100_S256x200) wt b
def hl128 (x : FVec Ideal Cert.ReferenceIdeal.S256x100 .f32) (wt : FVec Ideal Cert.ReferenceIdeal.S200x100 .f32) (b : FVec Ideal Cert.ReferenceIdeal.S1x100 .f32) :
    FVec Ideal Cert.ReferenceIdeal.S128x100 .f32 :=
  hostLevel Cert.ReferenceIdeal.dot_S128x200_S200x100_S128x100_1_0_0_1_n_n Cert.ReferenceIdeal.Facts₀.bcast_S1x100_S128x100_0_1 Cert.ReferenceIdeal.Facts₀.bcast_S_S128x100
    (shapeCast Cert.ReferenceIdeal.S128x200 x Cert.ReferenceIdeal.Facts₀.shapeCasts_S256x100_S128x200) wt b
def hl64 (x : FVec Ideal Cert.ReferenceIdeal.S128x100 .f32) (wt : FVec Ideal Cert.ReferenceIdeal.S200x100 .f32) (b : FVec Ideal Cert.ReferenceIdeal.S1x100 .f32) :
    FVec Ideal Cert.ReferenceIdeal.S64x100 .f32 :=
  hostLevel Cert.ReferenceIdeal.dot_S64x200_S200x100_S64x100_1_0_0_1_n_n Cert.ReferenceIdeal.Facts₀.bcast_S1x100_S64x100_0_1 Cert.ReferenceIdeal.Facts₀.bcast_S_S64x100
    (shapeCast Cert.ReferenceIdeal.S64x200 x Cert.ReferenceIdeal.Facts₀.shapeCasts_S128x100_S64x200) wt b
def hl32 (x : FVec Ideal Cert.ReferenceIdeal.S64x100 .f32) (wt : FVec Ideal Cert.ReferenceIdeal.S200x100 .f32) (b : FVec Ideal Cert.ReferenceIdeal.S1x100 .f32) :
    FVec Ideal Cert.ReferenceIdeal.S32x100 .f32 :=
  hostLevel Cert.ReferenceIdeal.dot_S32x200_S200x100_S32x100_1_0_0_1_n_n Cert.ReferenceIdeal.Facts₀.bcast_S1x100_S32x100_0_1 Cert.ReferenceIdeal.Facts₀.bcast_S_S32x100
    (shapeCast Cert.ReferenceIdeal.S32x200 x Cert.ReferenceIdeal.Facts₀.shapeCasts_S64x100_S32x200) wt b
def hl16 (x : FVec Ideal Cert.ReferenceIdeal.S32x100 .f32) (wt : FVec Ideal Cert.ReferenceIdeal.S200x100 .f32) (b : FVec Ideal Cert.ReferenceIdeal.S1x100 .f32) :
    FVec Ideal Cert.ReferenceIdeal.S16x100 .f32 :=
  hostLevel Cert.ReferenceIdeal.dot_S16x200_S200x100_S16x100_1_0_0_1_n_n Cert.ReferenceIdeal.Facts₀.bcast_S1x100_S16x100_0_1 Cert.ReferenceIdeal.Facts₀.bcast_S_S16x100
    (shapeCast Cert.ReferenceIdeal.S16x200 x Cert.ReferenceIdeal.Facts₀.shapeCasts_S32x100_S16x200) wt b
def hl8 (x : FVec Ideal Cert.ReferenceIdeal.S16x100 .f32) (wt : FVec Ideal Cert.ReferenceIdeal.S200x100 .f32) (b : FVec Ideal Cert.ReferenceIdeal.S1x100 .f32) :
    FVec Ideal Cert.ReferenceIdeal.S8x100 .f32 :=
  hostLevel Cert.ReferenceIdeal.dot_S8x200_S200x100_S8x100_1_0_0_1_n_n Cert.ReferenceIdeal.Facts₀.bcast_S1x100_S8x100_0_1 Cert.ReferenceIdeal.Facts₀.bcast_S_S8x100
    (shapeCast Cert.ReferenceIdeal.S8x200 x Cert.ReferenceIdeal.Facts₀.shapeCasts_S16x100_S8x200) wt b
def hl4 (x : FVec Ideal Cert.ReferenceIdeal.S8x100 .f32) (wt : FVec Ideal Cert.ReferenceIdeal.S200x100 .f32) (b : FVec Ideal Cert.ReferenceIdeal.S1x100 .f32) :
    FVec Ideal Cert.ReferenceIdeal.S4x100 .f32 :=
  hostLevel Cert.ReferenceIdeal.dot_S4x200_S200x100_S4x100_1_0_0_1_n_n Cert.ReferenceIdeal.Facts₀.bcast_S1x100_S4x100_0_1 Cert.ReferenceIdeal.Facts₀.bcast_S_S4x100
    (shapeCast Cert.ReferenceIdeal.S4x200 x Cert.ReferenceIdeal.Facts₀.shapeCasts_S8x100_S4x200) wt b
def hl2 (x : FVec Ideal Cert.ReferenceIdeal.S4x100 .f32) (wt : FVec Ideal Cert.ReferenceIdeal.S200x100 .f32) (b : FVec Ideal Cert.ReferenceIdeal.S1x100 .f32) :
    FVec Ideal Cert.ReferenceIdeal.S2x100 .f32 :=
  hostLevel Cert.ReferenceIdeal.dot_S2x200_S200x100_S2x100_1_0_0_1_n_n Cert.ReferenceIdeal.Facts₀.bcast_S1x100_S2x100_0_1 Cert.ReferenceIdeal.Facts₀.bcast_S_S2x100
    (shapeCast Cert.ReferenceIdeal.S2x200 x Cert.ReferenceIdeal.Facts₀.shapeCasts_S4x100_S2x200) wt b

theorem level4096_eq (x : FVec Ideal Cert.KernelIdeal.S8192x100 .f32) (wt : FVec Ideal Cert.ReferenceIdeal.S200x100 .f32) (b : FVec Ideal Cert.ReferenceIdeal.S1x100 .f32)
    (h : FTy.bf16.bits < FTy.f32.bits) : kl4096 x (truncf .bf16 wt h) b = hl4096 x wt b := by
  unfold kl4096 hl4096
  rw [level_eq (hb' := Cert.ReferenceIdeal.Facts₀.bcast_S1x100_S4096x100_0_1) (hz := Cert.ReferenceIdeal.Facts₀.bcast_S_S4096x100)]
  rfl
theorem level2048_eq (x : FVec Ideal Cert.KernelIdeal.S4096x100 .f32) (wt : FVec Ideal Cert.ReferenceIdeal.S200x100 .f32) (b : FVec Ideal Cert.ReferenceIdeal.S1x100 .f32)
    (h : FTy.bf16.bits < FTy.f32.bits) : kl2048 x (truncf .bf16 wt h) b = hl2048 x wt b := by
  unfold kl2048 hl2048
  rw [level_eq (hb' := Cert.ReferenceIdeal.Facts₀.bcast_S1x100_S2048x100_0_1) (hz := Cert.ReferenceIdeal.Facts₀.bcast_S_S2048x100)]
  rfl
theorem level1024_eq (x : FVec Ideal Cert.KernelIdeal.S2048x100 .f32) (wt : FVec Ideal Cert.ReferenceIdeal.S200x100 .f32) (b : FVec Ideal Cert.ReferenceIdeal.S1x100 .f32)
    (h : FTy.bf16.bits < FTy.f32.bits) : kl1024 x (truncf .bf16 wt h) b = hl1024 x wt b := by
  unfold kl1024 hl1024
  rw [level_eq (hb' := Cert.ReferenceIdeal.Facts₀.bcast_S1x100_S1024x100_0_1) (hz := Cert.ReferenceIdeal.Facts₀.bcast_S_S1024x100)]
  rfl
theorem level512_eq (x : FVec Ideal Cert.KernelIdeal.S1024x100 .f32) (wt : FVec Ideal Cert.ReferenceIdeal.S200x100 .f32) (b : FVec Ideal Cert.ReferenceIdeal.S1x100 .f32)
    (h : FTy.bf16.bits < FTy.f32.bits) : kl512 x (truncf .bf16 wt h) b = hl512 x wt b := by
  unfold kl512 hl512
  rw [level_eq (hb' := Cert.ReferenceIdeal.Facts₀.bcast_S1x100_S512x100_0_1) (hz := Cert.ReferenceIdeal.Facts₀.bcast_S_S512x100)]
  rfl
theorem level256_eq (x : FVec Ideal Cert.KernelIdeal.S512x100 .f32) (wt : FVec Ideal Cert.ReferenceIdeal.S200x100 .f32) (b : FVec Ideal Cert.ReferenceIdeal.S1x100 .f32)
    (h : FTy.bf16.bits < FTy.f32.bits) : kl256 x (truncf .bf16 wt h) b = hl256 x wt b := by
  unfold kl256 hl256
  rw [level_eq (hb' := Cert.ReferenceIdeal.Facts₀.bcast_S1x100_S256x100_0_1) (hz := Cert.ReferenceIdeal.Facts₀.bcast_S_S256x100)]
  rfl
theorem level128_eq (x : FVec Ideal Cert.KernelIdeal.S256x100 .f32) (wt : FVec Ideal Cert.ReferenceIdeal.S200x100 .f32) (b : FVec Ideal Cert.ReferenceIdeal.S1x100 .f32)
    (h : FTy.bf16.bits < FTy.f32.bits) : kl128 x (truncf .bf16 wt h) b = hl128 x wt b := by
  unfold kl128 hl128
  rw [level_eq (hb' := Cert.ReferenceIdeal.Facts₀.bcast_S1x100_S128x100_0_1) (hz := Cert.ReferenceIdeal.Facts₀.bcast_S_S128x100)]
  rfl
theorem level64_eq (x : FVec Ideal Cert.KernelIdeal.S128x100 .f32) (wt : FVec Ideal Cert.ReferenceIdeal.S200x100 .f32) (b : FVec Ideal Cert.ReferenceIdeal.S1x100 .f32)
    (h : FTy.bf16.bits < FTy.f32.bits) : kl64 x (truncf .bf16 wt h) b = hl64 x wt b := by
  unfold kl64 hl64
  rw [level_eq (hb' := Cert.ReferenceIdeal.Facts₀.bcast_S1x100_S64x100_0_1) (hz := Cert.ReferenceIdeal.Facts₀.bcast_S_S64x100)]
  rfl
theorem level32_eq (x : FVec Ideal Cert.KernelIdeal.S64x100 .f32) (wt : FVec Ideal Cert.ReferenceIdeal.S200x100 .f32) (b : FVec Ideal Cert.ReferenceIdeal.S1x100 .f32)
    (h : FTy.bf16.bits < FTy.f32.bits) : kl32 x (truncf .bf16 wt h) b = hl32 x wt b := by
  unfold kl32 hl32
  rw [level_eq (hb' := Cert.ReferenceIdeal.Facts₀.bcast_S1x100_S32x100_0_1) (hz := Cert.ReferenceIdeal.Facts₀.bcast_S_S32x100)]
  rfl
theorem level16_eq (x : FVec Ideal Cert.KernelIdeal.S32x100 .f32) (wt : FVec Ideal Cert.ReferenceIdeal.S200x100 .f32) (b : FVec Ideal Cert.ReferenceIdeal.S1x100 .f32)
    (h : FTy.bf16.bits < FTy.f32.bits) : kl16 x (truncf .bf16 wt h) b = hl16 x wt b := by
  unfold kl16 hl16
  rw [level_eq (hb' := Cert.ReferenceIdeal.Facts₀.bcast_S1x100_S16x100_0_1) (hz := Cert.ReferenceIdeal.Facts₀.bcast_S_S16x100)]
  rfl
theorem level8_eq (x : FVec Ideal Cert.KernelIdeal.S16x100 .f32) (wt : FVec Ideal Cert.ReferenceIdeal.S200x100 .f32) (b : FVec Ideal Cert.ReferenceIdeal.S1x100 .f32)
    (h : FTy.bf16.bits < FTy.f32.bits) : kl8 x (truncf .bf16 wt h) b = hl8 x wt b := by
  unfold kl8 hl8
  rw [level_eq (hb' := Cert.ReferenceIdeal.Facts₀.bcast_S1x100_S8x100_0_1) (hz := Cert.ReferenceIdeal.Facts₀.bcast_S_S8x100)]
  rfl
theorem level4_eq (x : FVec Ideal Cert.KernelIdeal.S8x100 .f32) (wt : FVec Ideal Cert.ReferenceIdeal.S200x100 .f32) (b : FVec Ideal Cert.ReferenceIdeal.S1x100 .f32)
    (h : FTy.bf16.bits < FTy.f32.bits) : kl4 x (truncf .bf16 wt h) b = hl4 x wt b := by
  unfold kl4 hl4
  rw [level_eq (hb' := Cert.ReferenceIdeal.Facts₀.bcast_S1x100_S4x100_0_1) (hz := Cert.ReferenceIdeal.Facts₀.bcast_S_S4x100)]
  rfl
theorem level2_eq (x : FVec Ideal Cert.KernelIdeal.S4x100 .f32) (wt : FVec Ideal Cert.ReferenceIdeal.S200x100 .f32) (b : FVec Ideal Cert.ReferenceIdeal.S1x100 .f32)
    (h : FTy.bf16.bits < FTy.f32.bits) : kl2 x (truncf .bf16 wt h) b = hl2 x wt b := by
  unfold kl2 hl2
  rw [level_eq (hb' := Cert.ReferenceIdeal.Facts₀.bcast_S1x100_S2x100_0_1) (hz := Cert.ReferenceIdeal.Facts₀.bcast_S_S2x100)]
  rfl

/-! ## The last level (one row) and the projection -/

def kLast (x : FVec Ideal Cert.KernelIdeal.S2x100 .f32) (w : FVec Ideal Cert.KernelIdeal.S200x100 .bf16) (b : FVec Ideal Cert.KernelIdeal.S1x100 .f32) :
    FVec Ideal Cert.KernelIdeal.S1x100 .f32 :=
  maximumf (addf (matmul Cert.KernelIdeal.dot_S1x200_S200x100_S1x100_1_0_0_1_n_n none
      (truncf .bf16 (shapeCast Cert.KernelIdeal.S1x200 x Cert.KernelIdeal.Facts₀.shapeCasts_S2x100_S1x200) Cert.KernelIdeal.Facts₀.bitsLt_bf16_f32) w
      (constant Cert.KernelIdeal.S1x100 .f32 0x00000000#32)) b)
    (broadcast Cert.KernelIdeal.S1x100 (Scalar.ofBits .f32 0x00000000#32))

def hLast (x : FVec Ideal Cert.ReferenceIdeal.S2x100 .f32) (wt : FVec Ideal Cert.ReferenceIdeal.S200x100 .f32) (b : FVec Ideal Cert.ReferenceIdeal.S1x100 .f32) :
    FVec Ideal Cert.ReferenceIdeal.S1x100 .f32 :=
  maximumf (addf (Host.dotGeneral Cert.ReferenceIdeal.dot_S1x200_S200x100_S1x100_1_0_0_1_n_n none
      (shapeCast Cert.ReferenceIdeal.S1x200 x Cert.ReferenceIdeal.Facts₀.shapeCasts_S2x100_S1x200) wt) b)
    (broadcastInDim Cert.ReferenceIdeal.S1x100 ![] Cert.ReferenceIdeal.Facts₀.bcast_S_S1x100 (constant Cert.ReferenceIdeal.S_ .f32 0x00000000#32))

theorem last_eq (x : FVec Ideal Cert.KernelIdeal.S2x100 .f32) (wt : FVec Ideal Cert.ReferenceIdeal.S200x100 .f32) (b : FVec Ideal Cert.ReferenceIdeal.S1x100 .f32)
    (h : FTy.bf16.bits < FTy.f32.bits) : kLast x (truncf .bf16 wt h) b = hLast x wt b := by
  unfold kLast hLast
  rw [matmul_rounded_zero_eq_dotGeneral, splat_eq_broadcastInDim _ _ _ Cert.ReferenceIdeal.Facts₀.bcast_S_S1x100]
  rfl

def kProj (x : FVec Ideal Cert.KernelIdeal.S1x100 .f32) (wp : FVec Ideal Cert.KernelIdeal.S100x2 .bf16) (bp : FVec Ideal Cert.KernelIdeal.S1x2 .f32) :
    FVec Ideal Cert.KernelIdeal.S1x2 .f32 :=
  addf (matmul Cert.KernelIdeal.dot_S1x100_S100x2_S1x2_1_0_0_1_n_n none (truncf .bf16 x Cert.KernelIdeal.Facts₀.bitsLt_bf16_f32) wp
    (constant Cert.KernelIdeal.S1x2 .f32 0x00000000#32)) bp

def hProj (x : FVec Ideal Cert.ReferenceIdeal.S1x100 .f32) (wpt : FVec Ideal Cert.ReferenceIdeal.S100x2 .f32) (bp : FVec Ideal Cert.ReferenceIdeal.S1x2 .f32) :
    FVec Ideal Cert.ReferenceIdeal.S1x2 .f32 :=
  addf (Host.dotGeneral Cert.ReferenceIdeal.dot_S1x100_S100x2_S1x2_1_0_0_1_n_n none x wpt) bp

theorem proj_eq (x : FVec Ideal Cert.KernelIdeal.S1x100 .f32) (wpt : FVec Ideal Cert.ReferenceIdeal.S100x2 .f32) (bp : FVec Ideal Cert.ReferenceIdeal.S1x2 .f32)
    (h : FTy.bf16.bits < FTy.f32.bits) : kProj x (truncf .bf16 wpt h) bp = hProj x wpt bp := by
  unfold kProj hProj
  rw [matmul_rounded_zero_eq_dotGeneral]
  rfl

/-! ## The two programs as compositions of the levels -/

set_option maxHeartbeats 1000000 in
/-- The tree kernel's stored value is the composition of its thirteen levels and the projection (its printed
    operations regrouped, nothing else). -/
theorem kernelTail_eq (x0 : Vec Ideal Cert.KernelIdeal.S8192x100 .f32) (x1 : Vec Ideal Cert.KernelIdeal.S200x100 .f32) (x2 : Vec Ideal Cert.KernelIdeal.S1x100 .f32)
    (x3 : Vec Ideal Cert.KernelIdeal.S100x2 .f32) (x4 : Vec Ideal Cert.KernelIdeal.S1x2 .f32) :
    kernelTail x0 x1 x2 x3 x4
      = kProj (kLast (kl2 (kl4 (kl8 (kl16 (kl32 (kl64 (kl128 (kl256 (kl512 (kl1024 (kl2048 (kl4096 (shapeCast Cert.KernelIdeal.S8192x100 x0 Cert.KernelIdeal.Facts₀.shapeCasts_S8192x100_S8192x100) (Cert.KernelIdeal.Gen.k1_pay2 x1) (Cert.KernelIdeal.Gen.k1_pay3 x2)) (Cert.KernelIdeal.Gen.k1_pay2 x1) (Cert.KernelIdeal.Gen.k1_pay3 x2)) (Cert.KernelIdeal.Gen.k1_pay2 x1) (Cert.KernelIdeal.Gen.k1_pay3 x2)) (Cert.KernelIdeal.Gen.k1_pay2 x1) (Cert.KernelIdeal.Gen.k1_pay3 x2)) (Cert.KernelIdeal.Gen.k1_pay2 x1) (Cert.KernelIdeal.Gen.k1_pay3 x2)) (Cert.KernelIdeal.Gen.k1_pay2 x1) (Cert.KernelIdeal.Gen.k1_pay3 x2)) (Cert.KernelIdeal.Gen.k1_pay2 x1) (Cert.KernelIdeal.Gen.k1_pay3 x2)) (Cert.KernelIdeal.Gen.k1_pay2 x1) (Cert.KernelIdeal.Gen.k1_pay3 x2)) (Cert.KernelIdeal.Gen.k1_pay2 x1) (Cert.KernelIdeal.Gen.k1_pay3 x2)) (Cert.KernelIdeal.Gen.k1_pay2 x1) (Cert.KernelIdeal.Gen.k1_pay3 x2)) (Cert.KernelIdeal.Gen.k1_pay2 x1) (Cert.KernelIdeal.Gen.k1_pay3 x2)) (Cert.KernelIdeal.Gen.k1_pay2 x1) (Cert.KernelIdeal.Gen.k1_pay3 x2)) (Cert.KernelIdeal.Gen.k1_pay2 x1) (Cert.KernelIdeal.Gen.k1_pay3 x2))
          (truncf .bf16 (shapeCast Cert.KernelIdeal.S100x2 x3 Cert.KernelIdeal.Facts₀.shapeCasts_S100x2_S100x2) Cert.KernelIdeal.Facts₀.bitsLt_bf16_f32)
          (shapeCast Cert.KernelIdeal.S1x2 x4 Cert.KernelIdeal.Facts₀.shapeCasts_S1x2_S1x2) :=
  rfl

set_option maxHeartbeats 1000000 in
/-- The reference's composed term is the composition of the host's leaves, thirteen levels and the projection (its
    printed operations regrouped, nothing else). -/
theorem reference_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v99 (F := Ideal) m' c
      = hProj (hLast (hl2 (hl4 (hl8 (hl16 (hl32 (hl64 (hl128 (hl256 (hl512 (hl1024 (hl2048 (hl4096 (Cert.Proof.Leaf.hostLeaves (m' ((c.tc : Thread Cert.ReferenceIdeal.nD Cert.ReferenceIdeal.τ).loc Cert.ReferenceIdeal.main_arg0)) (transpose Cert.ReferenceIdeal.S4096x100 [1, 0] (m' ((c.tc : Thread Cert.ReferenceIdeal.nD Cert.ReferenceIdeal.τ).loc Cert.ReferenceIdeal.main_arg1)) Cert.ReferenceIdeal.Facts₀.transposes_S100x4096_S4096x100_1_0) (broadcastInDim Cert.ReferenceIdeal.S1x100 ![1] Cert.ReferenceIdeal.Facts₀.bcast_S100_S1x100_1 (m' ((c.tc : Thread Cert.ReferenceIdeal.nD Cert.ReferenceIdeal.τ).loc Cert.ReferenceIdeal.main_arg2)))) (transpose Cert.ReferenceIdeal.S200x100 [1, 0] (m' ((c.tc : Thread Cert.ReferenceIdeal.nD Cert.ReferenceIdeal.τ).loc Cert.ReferenceIdeal.main_arg3)) Cert.ReferenceIdeal.Facts₀.transposes_S100x200_S200x100_1_0) (broadcastInDim Cert.ReferenceIdeal.S1x100 ![1] Cert.ReferenceIdeal.Facts₀.bcast_S100_S1x100_1 (m' ((c.tc : Thread Cert.ReferenceIdeal.nD Cert.ReferenceIdeal.τ).loc Cert.ReferenceIdeal.main_arg4)))) (transpose Cert.ReferenceIdeal.S200x100 [1, 0] (m' ((c.tc : Thread Cert.ReferenceIdeal.nD Cert.ReferenceIdeal.τ).loc Cert.ReferenceIdeal.main_arg3)) Cert.ReferenceIdeal.Facts₀.transposes_S100x200_S200x100_1_0) (broadcastInDim Cert.ReferenceIdeal.S1x100 ![1] Cert.ReferenceIdeal.Facts₀.bcast_S100_S1x100_1 (m' ((c.tc : Thread Cert.ReferenceIdeal.nD Cert.ReferenceIdeal.τ).loc Cert.ReferenceIdeal.main_arg4)))) (transpose Cert.ReferenceIdeal.S200x100 [1, 0] (m' ((c.tc : Thread Cert.ReferenceIdeal.nD Cert.ReferenceIdeal.τ).loc Cert.ReferenceIdeal.main_arg3)) Cert.ReferenceIdeal.Facts₀.transposes_S100x200_S200x100_1_0) (broadcastInDim Cert.ReferenceIdeal.S1x100 ![1] Cert.ReferenceIdeal.Facts₀.bcast_S100_S1x100_1 (m' ((c.tc : Thread Cert.ReferenceIdeal.nD Cert.ReferenceIdeal.τ).loc Cert.ReferenceIdeal.main_arg4)))) (transpose Cert.ReferenceIdeal.S200x100 [1, 0] (m' ((c.tc : Thread Cert.ReferenceIdeal.nD Cert.ReferenceIdeal.τ).loc Cert.ReferenceIdeal.main_arg3)) Cert.ReferenceIdeal.Facts₀.transposes_S100x200_S200x100_1_0) (broadcastInDim Cert.ReferenceIdeal.S1x100 ![1] Cert.ReferenceIdeal.Facts₀.bcast_S100_S1x100_1 (m' ((c.tc : Thread Cert.ReferenceIdeal.nD Cert.ReferenceIdeal.τ).loc Cert.ReferenceIdeal.main_arg4)))) (transpose Cert.ReferenceIdeal.S200x100 [1, 0] (m' ((c.tc : Thread Cert.ReferenceIdeal.nD Cert.ReferenceIdeal.τ).loc Cert.ReferenceIdeal.main_arg3)) Cert.ReferenceIdeal.Facts₀.transposes_S100x200_S200x100_1_0) (broadcastInDim Cert.ReferenceIdeal.S1x100 ![1] Cert.ReferenceIdeal.Facts₀.bcast_S100_S1x100_1 (m' ((c.tc : Thread Cert.ReferenceIdeal.nD Cert.ReferenceIdeal.τ).loc Cert.ReferenceIdeal.main_arg4)))) (transpose Cert.ReferenceIdeal.S200x100 [1, 0] (m' ((c.tc : Thread Cert.ReferenceIdeal.nD Cert.ReferenceIdeal.τ).loc Cert.ReferenceIdeal.main_arg3)) Cert.ReferenceIdeal.Facts₀.transposes_S100x200_S200x100_1_0) (broadcastInDim Cert.ReferenceIdeal.S1x100 ![1] Cert.ReferenceIdeal.Facts₀.bcast_S100_S1x100_1 (m' ((c.tc : Thread Cert.ReferenceIdeal.nD Cert.ReferenceIdeal.τ).loc Cert.ReferenceIdeal.main_arg4)))) (transpose Cert.ReferenceIdeal.S200x100 [1, 0] (m' ((c.tc : Thread Cert.ReferenceIdeal.nD Cert.ReferenceIdeal.τ).loc Cert.ReferenceIdeal.main_arg3)) Cert.ReferenceIdeal.Facts₀.transposes_S100x200_S200x100_1_0) (broadcastInDim Cert.ReferenceIdeal.S1x100 ![1] Cert.ReferenceIdeal.Facts₀.bcast_S100_S1x100_1 (m' ((c.tc : Thread Cert.ReferenceIdeal.nD Cert.ReferenceIdeal.τ).loc Cert.ReferenceIdeal.main_arg4)))) (transpose Cert.ReferenceIdeal.S200x100 [1, 0] (m' ((c.tc : Thread Cert.ReferenceIdeal.nD Cert.ReferenceIdeal.τ).loc Cert.ReferenceIdeal.main_arg3)) Cert.ReferenceIdeal.Facts₀.transposes_S100x200_S200x100_1_0) (broadcastInDim Cert.ReferenceIdeal.S1x100 ![1] Cert.ReferenceIdeal.Facts₀.bcast_S100_S1x100_1 (m' ((c.tc : Thread Cert.ReferenceIdeal.nD Cert.ReferenceIdeal.τ).loc Cert.ReferenceIdeal.main_arg4)))) (transpose Cert.ReferenceIdeal.S200x100 [1, 0] (m' ((c.tc : Thread Cert.ReferenceIdeal.nD Cert.ReferenceIdeal.τ).loc Cert.ReferenceIdeal.main_arg3)) Cert.ReferenceIdeal.Facts₀.transposes_S100x200_S200x100_1_0) (broadcastInDim Cert.ReferenceIdeal.S1x100 ![1] Cert.ReferenceIdeal.Facts₀.bcast_S100_S1x100_1 (m' ((c.tc : Thread Cert.ReferenceIdeal.nD Cert.ReferenceIdeal.τ).loc Cert.ReferenceIdeal.main_arg4)))) (transpose Cert.ReferenceIdeal.S200x100 [1, 0] (m' ((c.tc : Thread Cert.ReferenceIdeal.nD Cert.ReferenceIdeal.τ).loc Cert.ReferenceIdeal.main_arg3)) Cert.ReferenceIdeal.Facts₀.transposes_S100x200_S200x100_1_0) (broadcastInDim Cert.ReferenceIdeal.S1x100 ![1] Cert.ReferenceIdeal.Facts₀.bcast_S100_S1x100_1 (m' ((c.tc : Thread Cert.ReferenceIdeal.nD Cert.ReferenceIdeal.τ).loc Cert.ReferenceIdeal.main_arg4)))) (transpose Cert.ReferenceIdeal.S200x100 [1, 0] (m' ((c.tc : Thread Cert.ReferenceIdeal.nD Cert.ReferenceIdeal.τ).loc Cert.ReferenceIdeal.main_arg3)) Cert.ReferenceIdeal.Facts₀.transposes_S100x200_S200x100_1_0) (broadcastInDim Cert.ReferenceIdeal.S1x100 ![1] Cert.ReferenceIdeal.Facts₀.bcast_S100_S1x100_1 (m' ((c.tc : Thread Cert.ReferenceIdeal.nD Cert.ReferenceIdeal.τ).loc Cert.ReferenceIdeal.main_arg4)))) (transpose Cert.ReferenceIdeal.S200x100 [1, 0] (m' ((c.tc : Thread Cert.ReferenceIdeal.nD Cert.ReferenceIdeal.τ).loc Cert.ReferenceIdeal.main_arg3)) Cert.ReferenceIdeal.Facts₀.transposes_S100x200_S200x100_1_0) (broadcastInDim Cert.ReferenceIdeal.S1x100 ![1] Cert.ReferenceIdeal.Facts₀.bcast_S100_S1x100_1 (m' ((c.tc : Thread Cert.ReferenceIdeal.nD Cert.ReferenceIdeal.τ).loc Cert.ReferenceIdeal.main_arg4)))) (transpose Cert.ReferenceIdeal.S200x100 [1, 0] (m' ((c.tc : Thread Cert.ReferenceIdeal.nD Cert.ReferenceIdeal.τ).loc Cert.ReferenceIdeal.main_arg3)) Cert.ReferenceIdeal.Facts₀.transposes_S100x200_S200x100_1_0) (broadcastInDim Cert.ReferenceIdeal.S1x100 ![1] Cert.ReferenceIdeal.Facts₀.bcast_S100_S1x100_1 (m' ((c.tc : Thread Cert.ReferenceIdeal.nD Cert.ReferenceIdeal.τ).loc Cert.ReferenceIdeal.main_arg4)))) (transpose Cert.ReferenceIdeal.S100x2 [1, 0] (m' ((c.tc : Thread Cert.ReferenceIdeal.nD Cert.ReferenceIdeal.τ).loc Cert.ReferenceIdeal.main_arg5)) Cert.ReferenceIdeal.Facts₀.transposes_S2x100_S100x2_1_0) (broadcastInDim Cert.ReferenceIdeal.S1x2 ![1] Cert.ReferenceIdeal.Facts₀.bcast_S2_S1x2_1 (m' ((c.tc : Thread Cert.ReferenceIdeal.nD Cert.ReferenceIdeal.τ).loc Cert.ReferenceIdeal.main_arg6))) :=
  rfl

end Cert.Proof.Tree

end
-- ==== Proof.TreeBridge.lean ====
import proofs.«108015_j13924283974382_2_alg».proof.Proof.TreeTail

noncomputable section

/-!
The reference's result is the kernel's function of the arguments: both are the composition of the host's leaves,
thirteen levels and the projection; level by level the kernel's spelling is rewritten to the host's.
-/
namespace Cert.Proof.Tree
open Idealize.ShloMosaic Idealize.ShloMosaic.TcCoe Idealize.SL.Sem
open Cert.Proof.LibHostForms

/-- The kernel's rounded `Wᵀ`: the identity reshape drops out. -/
theorem pay2_eq (v : Vec Ideal Cert.KernelIdeal.S200x100 .f32) :
    Cert.KernelIdeal.Gen.k1_pay2 v = truncf .bf16 v Cert.KernelIdeal.Facts₀.bitsLt_bf16_f32 := by
  unfold Cert.KernelIdeal.Gen.k1_pay2
  rw [shapeCast_self]

/-- The kernel's bias row: the identity reshape drops out. -/
theorem pay3_eq (v : Vec Ideal Cert.KernelIdeal.S1x100 .f32) : Cert.KernelIdeal.Gen.k1_pay3 v = v := by
  unfold Cert.KernelIdeal.Gen.k1_pay3
  rw [shapeCast_self]

set_option maxHeartbeats 1000000 in
/-- The reference's composed term of its arguments is `result` of them. -/
theorem reference_eq_result (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v99 (F := Ideal) m' c
      = result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) := by
  rw [reference_eq m' c]
  unfold result
  rw [kernelTail_eq, pay2_eq, pay3_eq]
  simp only [shapeCast_self, asRow_eq_broadcast']
  rw [level4096_eq, level2048_eq, level1024_eq, level512_eq, level256_eq, level128_eq, level64_eq, level32_eq, level16_eq, level8_eq, level4_eq, level2_eq, last_eq, proj_eq]

end Cert.Proof.Tree

end
-- ==== Proof.lean ====
/-
  A recursive network over a perfect binary tree of 8192 leaves, kernel against reference, on the extended reals.

  Leaves: `relu (x · Weᵀ + be)`, one row of 100 per leaf. Thirteen levels: adjacent rows are concatenated in
  pairs (`[2n, 100] → [n, 200]`, one row-major reshape), `relu (pairs · Wᵀ + b)`. Root: `h · Wpᵀ + bp`, a
  1 × 2 row. The kernel computes the leaves in a launch of 16 blocks of 512 rows and the thirteen levels with the
  projection in a second launch of one block; it rounds every product's operands to bf16 and accumulates into a
  zero matrix. The reference is the same arrangement of host operations. On the extended reals rounding is the
  identity and a zero accumulator adds nothing, so both programs compute ONE composition of the same operations:
  the equality needs no algebraic law beyond reading the two spellings of each operation as the same function,
  and never uses that the inputs are finite.

  * LeafEntry: the leaf embedding at one entry, from a block's payload and from the host's three operations.
  * LeafArray: the 16 written-back blocks are the blocks of the host's leaves, and cover the array.
  * TreeSpec, TreeTail, TreeBridge: the tree kernel's thirteen levels and projection are, level by level, the
    reference's term (one lemma for a level of any number of rows).
  * TreeArray: the one block of the second launch is the whole result.
  * HostLines: what the host lines before each launch leave in its operands; the result buffer's final contents.
  * KernelRun: the run of the two launches with the result buffer read.
  The frames are the generated ones; the ideal pass rewrote nothing, so the idealization claim is trivial.
-/
import proofs.«108015_j13924283974382_2_alg».proof.Defs
import proofs.«108015_j13924283974382_2_alg».proof.Proof.Gen.Kernel
import proofs.«108015_j13924283974382_2_alg».proof.Proof.Gen.Kernel.Frame
import proofs.«108015_j13924283974382_2_alg».proof.Proof.Gen.KernelIdeal
import proofs.«108015_j13924283974382_2_alg».proof.Proof.Gen.KernelIdeal.Frame
import proofs.«108015_j13924283974382_2_alg».proof.Proof.Gen.ReferenceIdeal
import proofs.«108015_j13924283974382_2_alg».proof.Proof.Gen.ReferenceIdeal.Run
import proofs.«108015_j13924283974382_2_alg».proof.Proof.Gen.Pre_finite_inputs
import proofs.«108015_j13924283974382_2_alg».proof.Proof.KernelRun
import proofs.«108015_j13924283974382_2_alg».proof.Proof.HostLines
import proofs.«108015_j13924283974382_2_alg».proof.Proof.TreeBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result at `Tree.result` of the argument arrays: the kernel's by reading its two
    launches, the reference's because its composed term is that function; the arguments agree. -/
theorem algebraic : Cert.algebraic_KernelIdeal_ReferenceIdeal := by
  intro m ρ m' ρ' _ hagree
  refine ⟨fun c => Cert.Proof.Tree.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Proof.HostLines.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.Proof.Tree.reference_eq_result m' c, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
